-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x48 : Shape := ⟨2, ![10000, 48]⟩
abbrev S10000x48x25 : Shape := ⟨3, ![10000, 48, 25]⟩
abbrev S25x128 : Shape := ⟨2, ![25, 128]⟩
abbrev S128 : Shape := ⟨1, ![128]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x48 : S_.BroadcastsInDim S10000x48 (![] : Fin 0 → Fin S10000x48.rank)
  reducesTo_S10000x48_S_d0_1 : S10000x48.ReducesTo [0, 1] S_
  bcast_S_S10000x48x25 : S_.BroadcastsInDim S10000x48x25 (![] : Fin 0 → Fin S10000x48x25.rank)
  reducesTo_S10000x48x25_S_d0_1_2 : S10000x48x25.ReducesTo [0, 1, 2] S_
  bcast_S_S25x128 : S_.BroadcastsInDim S25x128 (![] : Fin 0 → Fin S25x128.rank)
  reducesTo_S25x128_S_d0_1 : S25x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S128 .f32) (main_arg9 : FVec F S128x128 .f32) (main_arg10 : FVec F S128x128 .f32) (main_arg11 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S25x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) (main_v13 : IVec S_ 1) (main_v16 : IVec S10000x48 1) : IVec S_ 1 :=
  let main_c_5 : IVec S_ 1 := constantI S_ 1 1#1
  let main_v17 : IVec S_ 1 := (fun x v => Host.reduce IntOp.andi x v reducesTo_S10000x48_S_d0_1 h_S_) main_v16 main_c_5
  let main_v18 : IVec S_ 1 := andi main_v13 main_v17
  let main_v19 : FVec F S25x128 .f32 := Host.absf main_arg5
  let main_cst_6 : FVec F S_ .f32 := constant S_ .f32 0x7F800000#32
  let main_v20 : FVec F S25x128 .f32 := broadcastInDim S25x128 ![] bcast_S_S25x128 main_cst_6
  let main_v21 : IVec S25x128 1 := cmpf .olt main_v19 main_v20
  let main_c_7 : IVec S_ 1 := constantI S_ 1 1#1
  let main_v22 : IVec S_ 1 := (fun x v => Host.reduce IntOp.andi x v reducesTo_S25x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S10000x128 .f32) (main_arg1 : FVec F S10000x48 .f32) (main_arg2 : FVec F S10000x48x25 .f32) (main_arg3 : FVec F S10000x48 .f32) (main_arg4 : IVec S10000x48 32) (main_arg5 : FVec F S25x128 .f32) (main_arg6 : FVec F S128 .f32) (main_arg7 : FVec F S128x128 .f32) (main_arg8 : FVec F S128 .f32) (main_arg9 : FVec F S128x128 .f32) (main_arg10 : FVec F S128x128 .f32) (main_arg11 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x48 .f32 := Host.absf main_arg1
  let main_cst_0 : FVec F S_ .f32 := constant S_ .f32 0x7F800000#32
  let main_v5 : FVec F S10000x48 .f32 := broadcastInDim S10000x48 ![] bcast_S_S10000x48 main_cst_0
  let main_v6 : IVec S10000x48 1 := cmpf .olt main_v4 main_v5
  let main_c_1 : IVec S_ 1 := constantI S_ 1 1#1
  let main_v7 : IVec S_ 1 := (fun x v => Host.reduce IntOp.andi x v reducesTo_S10000x48_S_d0_1 h_S_) main_v6 main_c_1
  let main_v8 : IVec S_ 1 := andi main_v3 main_v7
  let main_v9 : FVec F S10000x48x25 .f32 := Host.absf main_arg2
  let main_cst_2 : FVec F S_ .f32 := constant S_ .f32 0x7F800000#32
  let main_v10 : FVec F S10000x48x25 .f32 := broadcastInDim S10000x48x25 ![] bcast_S_S10000x48x25 main_cst_2
  let main_v11 : IVec S10000x48x25 1 := cmpf .olt main_v9 main_v10
  let main_c_3 : IVec S_ 1 := constantI S_ 1 1#1
  let main_v12 : IVec S_ 1 := (fun x v => Host.reduce IntOp.andi x v reducesTo_S10000x48x25_S_d0_1_2 h_S_) main_v11 main_c_3
  let main_v13 : IVec S_ 1 := andi main_v8 main_v12
  let main_v14 : FVec F S10000x48 .f32 := Host.absf main_arg3
  let main_cst_4 : FVec F S_ .f32 := constant S_ .f32 0x7F800000#32
  let main_v15 : FVec F S10000x48 .f32 := broadcastInDim S10000x48 ![] bcast_S_S10000x48 main_cst_4
  let main_v16 : IVec S10000x48 1 := cmpf .olt main_v14 main_v15
  fn_part1 (F := F) main_arg5 main_arg6 main_arg7 main_arg8 main_arg9 main_arg10 main_arg11 main_v13 main_v16
-- ==== Kernel.lean ====
abbrev S10000x128 : Shape := ⟨2, ![10000, 128]⟩
abbrev S10000x48 : Shape := ⟨2, ![10000, 48]⟩
abbrev S10000x48x25 : Shape := ⟨3, ![10000, 48, 25]⟩
abbrev S25x128 : Shape := ⟨2, ![25, 128]⟩
abbrev S128 : Shape := ⟨1, ![128]⟩
abbrev S128x128 : Shape := ⟨2, ![128, 128]⟩
abbrev S2000x128 : Shape := ⟨2, ![2000, 128]⟩
abbrev S_ : Shape := ⟨0, ![]⟩
abbrev S10000x48x1 : Shape := ⟨3, ![10000, 48, 1]⟩
abbrev S1 : Shape := ⟨1, ![1]⟩
abbrev S1x1x1 : Shape := ⟨3, ![1, 1, 1]⟩
abbrev S10000x48x128 : Shape := ⟨3, ![10000, 48, 128]⟩
abbrev S200x48x25 : Shape := ⟨3, ![200, 48, 25]⟩
abbrev S200x48 : Shape := ⟨2, ![200, 48]⟩
abbrev S200x48x128 : Shape := ⟨3, ![200, 48, 128]⟩
abbrev S200x128 : Shape := ⟨2, ![200, 128]⟩
abbrev S9600x25 : Shape := ⟨2, ![9600, 25]⟩
abbrev S9600x128 : Shape := ⟨2, ![9600, 128]⟩
abbrev S1x128 : Shape := ⟨2, ![1, 128]⟩
abbrev S200x48x1 : Shape := ⟨3, ![200, 48, 1]⟩

abbrev nBuf : Space → Nat
  | .hbm => 42
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x48, .f32⟩
  | .hbm, ⟨2, _⟩ => ⟨S10000x48x25, .f32⟩
  | .hbm, ⟨3, _⟩ => ⟨S10000x48, .f32⟩
  | .hbm, ⟨4, _⟩ => ⟨S10000x48, .i32⟩
  | .hbm, ⟨5, _⟩ => ⟨S25x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S10000x128, .f32⟩
  | .hbm, ⟨13, _⟩ => ⟨S_, .i32⟩
  | .hbm, ⟨14, _⟩ => ⟨S10000x48, .i32⟩
  | .hbm, ⟨15, _⟩ => ⟨S10000x48, .i1⟩
  | .hbm, ⟨16, _⟩ => ⟨S_, .i32⟩
  | .hbm, ⟨17, _⟩ => ⟨S10000x48, .i32⟩
  | .hbm, ⟨18, _⟩ => ⟨S10000x48, .i32⟩
  | .hbm, ⟨19, _⟩ => ⟨S10000x48, .i32⟩
  | .hbm, ⟨20, _⟩ => ⟨S10000x48x1, .i32⟩
  | .hbm, ⟨21, _⟩ => ⟨S1, .i32⟩
  | .hbm, ⟨22, _⟩ => ⟨S_, .i32⟩
  | .hbm, ⟨23, _⟩ => ⟨S10000x48x1, .i32⟩
  | .hbm, ⟨24, _⟩ => ⟨S10000x48x1, .i1⟩
  | .hbm, ⟨25, _⟩ => ⟨S1x1x1, .i32⟩
  | .hbm, ⟨26, _⟩ => ⟨S10000x48x1, .i32⟩
  | .hbm, ⟨27, _⟩ => ⟨S10000x48x1, .i1⟩
  | .hbm, ⟨28, _⟩ => ⟨S10000x48x1, .i1⟩
  | .hbm, ⟨29, _⟩ => ⟨S_, .i1⟩
  | .hbm, ⟨30, _⟩ => ⟨S10000x48, .i1⟩
  | .hbm, ⟨31, _⟩ => ⟨S10000x48x128, .f32⟩
  | .hbm, ⟨32, _⟩ => ⟨S10000x48x128, .i1⟩
  | .hbm, ⟨33, _⟩ => ⟨S_, .f32⟩
  | .hbm, ⟨34, _⟩ => ⟨S10000x48x128, .f32⟩
  | .hbm, ⟨35, _⟩ => ⟨S10000x48x128, .f32⟩
  | .hbm, ⟨36, _⟩ => ⟨S_, .f32⟩
  | .hbm, ⟨37, _⟩ => ⟨S10000x48, .f32⟩
  | .hbm, ⟨38, _⟩ => ⟨S10000x48, .i1⟩
  | .hbm, ⟨39, _⟩ => ⟨S10000x48, .f32⟩
  | .hbm, ⟨40, _⟩ => ⟨S10000x48, .f32⟩
  | .hbm, ⟨41, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S200x48x25, .f32⟩
  | .local _ .vmem, ⟨6, _⟩ => ⟨S200x48x25, .f32⟩
  | .local _ .vmem, ⟨7, _⟩ => ⟨S200x48, .f32⟩
  | .local _ .vmem, ⟨8, _⟩ => ⟨S200x48, .f32⟩
  | .local _ .vmem, ⟨9, _⟩ => ⟨S200x48x128, .f32⟩
  | .local _ .vmem, ⟨10, _⟩ => ⟨S200x48x128, .f32⟩
  | .local _ .vmem, ⟨11, _⟩ => ⟨S25x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S200x128, .f32⟩
  | .local _ .vmem, ⟨18, _⟩ => ⟨S200x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v1 : Ref sig .tc := ⟨.hbm, 35, rfl⟩
abbrev main_cst : Ref sig .tc := ⟨.hbm, 36, rfl⟩
abbrev main_v2 : Ref sig .tc := ⟨.hbm, 37, rfl⟩
abbrev main_v3 : Ref sig .tc := ⟨.hbm, 38, rfl⟩
abbrev main_v4 : Ref sig .tc := ⟨.hbm, 39, rfl⟩
abbrev main_v5 : Ref sig .tc := ⟨.hbm, 40, rfl⟩
abbrev main_v6 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x48x25 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x48 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S200x48x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S25x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S200x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S10000x48 : S_.BroadcastsInDim S10000x48 (![] : Fin 0 → Fin S10000x48.rank)
  bcast_S10000x48_S10000x48x1_0_1 : S10000x48.BroadcastsInDim S10000x48x1 (![0, 1] : Fin 2 → Fin S10000x48x1.rank)
  bcast_S_S10000x48x1 : S_.BroadcastsInDim S10000x48x1 (![] : Fin 0 → Fin S10000x48x1.rank)
  bcast_S1_S1x1x1_2 : S1.BroadcastsInDim S1x1x1 (![2] : Fin 1 → Fin S1x1x1.rank)
  bcast_S1x1x1_S10000x48x1_0_1_2 : S1x1x1.BroadcastsInDim S10000x48x1 (![0, 1, 2] : Fin 3 → Fin S10000x48x1.rank)
  reducesTo_S10000x48x1_S10000x48_d2 : S10000x48x1.ReducesTo [2] S10000x48
  h_S_ : 0 < S_.numel
  bcast_S10000x48_S10000x48x128_0_1 : S10000x48.BroadcastsInDim S10000x48x128 (![0, 1] : Fin 2 → Fin S10000x48x128.rank)
  bcast_S_S10000x48x128 : S_.BroadcastsInDim S10000x48x128 (![] : Fin 0 → Fin S10000x48x128.rank)
  inb_S200x48x25_S200x48x25_0_0_0 : ∀ a, (![0, 0, 0] : Fin 3 → Nat) a + S200x48x25.size a ≤ S200x48x25.size a
  h_S200x48x25 : 0 < S200x48x25.numel
  shapeCasts_S200x48x25_S9600x25 : S200x48x25.ShapeCasts S9600x25
  inb_S25x128_S25x128_0_0 : ∀ a, (![0, 0] : Fin 2 → Nat) a + S25x128.size a ≤ S25x128.size a
  h_S25x128 : 0 < S25x128.numel
  inb_S128_S128_0 : ∀ a, (![0] : Fin 1 → Nat) a + S128.size a ≤ S128.size a
  h_S128 : 0 < S128.numel
  shapeCasts_S128_S1x128 : S128.ShapeCasts S1x128
  broadcasts_S1x128_S9600x128 : S1x128.Broadcasts S9600x128
  shapeCasts_S9600x128_S200x48x128 : S9600x128.ShapeCasts S200x48x128
  inb_S200x48_S200x48_0_0 : ∀ a, (![0, 0] : Fin 2 → Nat) a + S200x48.size a ≤ S200x48.size a
  h_S200x48 : 0 < S200x48.numel
  shapeCasts_S200x48_S200x48 : S200x48.ShapeCasts S200x48
  shapeCasts_S200x48_S200x48x1 : S200x48.ShapeCasts S200x48x1
  broadcasts_S200x48x1_S200x48x128 : S200x48x1.Broadcasts S200x48x128
  inb_S200x48x128_S200x48x128_0_0_0 : ∀ a, (![0, 0, 0] : Fin 3 → Nat) a + S200x48x128.size a ≤ S200x48x128.size a
  h_S200x48x128 : 0 < S200x48x128.numel
  shapeCasts_S200x48x128_S200x48x128 : S200x48x128.ShapeCasts S200x48x128
  reduces_S200x48x128_S200x128 : S200x48x128.Reduces [1] S200x128
  broadcasts_S1x128_S200x128 : S1x128.Broadcasts S200x128
  inb_S200x128_S200x128_0_0 : ∀ a, (![0, 0] : Fin 2 → Nat) a + S200x128.size a ≤ S200x128.size a
  h_S200x128 : 0 < S200x128.numel
  dot_S2000x128_S128x128_S2000x128_1_0_0_1_n_n_wf : DotDims.WF S2000x128 S128x128 S2000x128 [1] [0] [0] [1] [] []
  gather_S10000x128_S10000x48x1_S10000x48x128_2_0_n_n_0_2_1128_wf : GatherDims.WF S10000x128 S10000x48x1 S10000x48x128 [2] [0] [] [0] [] 2 ![1, 128]
  dot_S9600x25_S25x128_S9600x128_1_0_0_1_n_n_wf : DotDims.WF S9600x25 S25x128 S9600x128 [1] [0] [0] [1] [] []
  dot_S9600x128_S128x128_S9600x128_1_0_0_1_n_n_wf : DotDims.WF S9600x128 S128x128 S9600x128 [1] [0] [0] [1] [] []
  dot_S200x128_S128x128_S200x128_1_0_0_1_n_n_wf : DotDims.WF S200x128 S128x128 S200x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S10000x128.size a
  hwx0_2 : ∀ i : grid0.Coords, EltTy.bits .f32 = 32 ∨ (Rect.block (s := S10000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x48x25.size a ≤ S10000x48x25.size a
  hwx1_0 : ∀ i : grid1.Coords, EltTy.bits .f32 = 32 ∨ (Rect.block (s := S10000x48x25) S200x48x25.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x48.size a ≤ S10000x48.size a
  hwx1_1 : ∀ i : grid1.Coords, EltTy.bits .f32 = 32 ∨ (Rect.block (s := S10000x48) S200x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S200x48x128.size a ≤ S10000x48x128.size a
  hwx1_2 : ∀ i : grid1.Coords, EltTy.bits .f32 = 32 ∨ (Rect.block (s := S10000x48x128) S200x48x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S25x128.size a ≤ S25x128.size a
  hwx1_3 : ∀ i : grid1.Coords, EltTy.bits .f32 = 32 ∨ (Rect.block (s := S25x128) S25x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S200x128.size a ≤ S10000x128.size a
  hwx1_9 : ∀ i : grid1.Coords, EltTy.bits .f32 = 32 ∨ (Rect.block (s := S10000x128) S200x128.size (cc1_transform_9 i) (hinb1_9 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S10000x128_S10000x48x1_S10000x48x128_2_0_n_n_0_2_1128 : GatherDims S10000x128 S10000x48x1 S10000x48x128 where
  offsetDims := [2]
  collapsedSliceDims := [0]
  operandBatchingDims := []
  startIndicesBatchingDims := []
  startIndexMap := [0]
  indexVectorDim := 2
  sliceSizes := ![1, 128]
  wf := gather_S10000x128_S10000x48x1_S10000x48x128_2_0_n_n_0_2_1128_wf
def dot_S9600x25_S25x128_S9600x128_1_0_0_1_n_n : DotDims S9600x25 S25x128 S9600x128 where
  lhsContracting := [1]
  rhsContracting := [0]
  lhsNonContracting := [0]
  rhsNonContracting := [1]
  lhsBatch := []
  rhsBatch := []
  wf := dot_S9600x25_S25x128_S9600x128_1_0_0_1_n_n_wf
def dot_S9600x128_S128x128_S9600x128_1_0_0_1_n_n : DotDims S9600x128 S128x128 S9600x128 where
  lhsContracting := [1]
  rhsContracting := [0]
  lhsNonContracting := [0]
  rhsNonContracting := [1]
  lhsBatch := []
  rhsBatch := []
  wf := dot_S9600x128_S128x128_S9600x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S200x48x25.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S200x48.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S200x48x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S25x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v6) S200x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x48 : Shape := ⟨2, ![10000, 48]⟩
abbrev S10000x48x25 : Shape := ⟨3, ![10000, 48, 25]⟩
abbrev S25x128 : Shape := ⟨2, ![25, 128]⟩
abbrev S128 : Shape := ⟨1, ![128]⟩
abbrev S128x128 : Shape := ⟨2, ![128, 128]⟩
abbrev S10000x48x128 : Shape := ⟨3, ![10000, 48, 128]⟩
abbrev S1x1x128 : Shape := ⟨3, ![1, 1, 128]⟩
abbrev S_ : Shape := ⟨0, ![]⟩
abbrev S10000x48x1 : Shape := ⟨3, ![10000, 48, 1]⟩
abbrev S1 : Shape := ⟨1, ![1]⟩
abbrev S1x1x1 : Shape := ⟨3, ![1, 1, 1]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x48, .f32⟩
  | .hbm, ⟨2, _⟩ => ⟨S10000x48x25, .f32⟩
  | .hbm, ⟨3, _⟩ => ⟨S10000x48, .f32⟩
  | .hbm, ⟨4, _⟩ => ⟨S10000x48, .i32⟩
  | .hbm, ⟨5, _⟩ => ⟨S25x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128x128, .f32⟩
  | .hbm, ⟨11, _⟩ => ⟨S128, .f32⟩
  | .hbm, ⟨12, _⟩ => ⟨S10000x48x128, .f32⟩
  | .hbm, ⟨13, _⟩ => ⟨S1x1x128, .f32⟩
  | .hbm, ⟨14, _⟩ => ⟨S10000x48x128, .f32⟩
  | .hbm, ⟨15, _⟩ => ⟨S10000x48x128, .f32⟩
  | .hbm, ⟨16, _⟩ => ⟨S_, .f32⟩
  | .hbm, ⟨17, _⟩ => ⟨S10000x48x128, .f32⟩
  | .hbm, ⟨18, _⟩ => ⟨S10000x48x128, .f32⟩
  | .hbm, ⟨19, _⟩ => ⟨S10000x48x128, .f32⟩
  | .hbm, ⟨20, _⟩ => ⟨S10000x48x128, .f32⟩
  | .hbm, ⟨21, _⟩ => ⟨S10000x48x128, .i1⟩
  | .hbm, ⟨22, _⟩ => ⟨S10000x48x128, .f32⟩
  | .hbm, ⟨23, _⟩ => ⟨S10000x48x128, .f32⟩
  | .hbm, ⟨24, _⟩ => ⟨S10000x48x128, .f32⟩
  | .hbm, ⟨25, _⟩ => ⟨S10000x48x128, .f32⟩
  | .hbm, ⟨26, _⟩ => ⟨S10000x48x128, .f32⟩
  | .hbm, ⟨27, _⟩ => ⟨S10000x48x128, .f32⟩
  | .hbm, ⟨28, _⟩ => ⟨S10000x48x128, .f32⟩
  | .hbm, ⟨29, _⟩ => ⟨S10000x48x128, .f32⟩
  | .hbm, ⟨30, _⟩ => ⟨S_, .f32⟩
  | .hbm, ⟨31, _⟩ => ⟨S10000x48x128, .f32⟩
  | .hbm, ⟨32, _⟩ => ⟨S10000x48x128, .f32⟩
  | .hbm, ⟨33, _⟩ => ⟨S10000x48x128, .f32⟩
  | .hbm, ⟨34, _⟩ => ⟨S1x1x128, .f32⟩
  | .hbm, ⟨35, _⟩ => ⟨S10000x48x128, .f32⟩
  | .hbm, ⟨36, _⟩ => ⟨S10000x48x128, .f32⟩
  | .hbm, ⟨37, _⟩ => ⟨S_, .f32⟩
  | .hbm, ⟨38, _⟩ => ⟨S10000x48, .f32⟩
  | .hbm, ⟨39, _⟩ => ⟨S10000x48, .i1⟩
  | .hbm, ⟨40, _⟩ => ⟨S10000x48, .f32⟩
  | .hbm, ⟨41, _⟩ => ⟨S10000x48x1, .f32⟩
  | .hbm, ⟨42, _⟩ => ⟨S10000x48x128, .f32⟩
  | .hbm, ⟨43, _⟩ => ⟨S10000x48x128, .f32⟩
  | .hbm, ⟨44, _⟩ => ⟨S10000x128, .f32⟩
  | .hbm, ⟨45, _⟩ => ⟨S_, .i32⟩
  | .hbm, ⟨46, _⟩ => ⟨S10000x48, .i32⟩
  | .hbm, ⟨47, _⟩ => ⟨S10000x48, .i1⟩
  | .hbm, ⟨48, _⟩ => ⟨S_, .i32⟩
  | .hbm, ⟨49, _⟩ => ⟨S10000x48, .i32⟩
  | .hbm, ⟨50, _⟩ => ⟨S10000x48, .i32⟩
  | .hbm, ⟨51, _⟩ => ⟨S10000x48, .i32⟩
  | .hbm, ⟨52, _⟩ => ⟨S10000x48x1, .i32⟩
  | .hbm, ⟨53, _⟩ => ⟨S1, .i32⟩
  | .hbm, ⟨54, _⟩ => ⟨S_, .i32⟩
  | .hbm, ⟨55, _⟩ => ⟨S10000x48x1, .i32⟩
  | .hbm, ⟨56, _⟩ => ⟨S10000x48x1, .i1⟩
  | .hbm, ⟨57, _⟩ => ⟨S1x1x1, .i32⟩
  | .hbm, ⟨58, _⟩ => ⟨S10000x48x1, .i32⟩
  | .hbm, ⟨59, _⟩ => ⟨S10000x48x1, .i1⟩
  | .hbm, ⟨60, _⟩ => ⟨S10000x48x1, .i1⟩
  | .hbm, ⟨61, _⟩ => ⟨S_, .i1⟩
  | .hbm, ⟨62, _⟩ => ⟨S10000x48, .i1⟩
  | .hbm, ⟨63, _⟩ => ⟨S10000x48x128, .f32⟩
  | .hbm, ⟨64, _⟩ => ⟨S10000x48x128, .i1⟩
  | .hbm, ⟨65, _⟩ => ⟨S_, .f32⟩
  | .hbm, ⟨66, _⟩ => ⟨S10000x48x128, .f32⟩
  | .hbm, ⟨67, _⟩ => ⟨S10000x48x128, .f32⟩
  | .hbm, ⟨68, _⟩ => ⟨S10000x48x128, .f32⟩
  | .hbm, ⟨69, _⟩ => ⟨S10000x48x1, .f32⟩
  | .hbm, ⟨70, _⟩ => ⟨S10000x48x128, .f32⟩
  | .hbm, ⟨71, _⟩ => ⟨S10000x48x128, .f32⟩
  | .hbm, ⟨72, _⟩ => ⟨S_, .f32⟩
  | .hbm, ⟨73, _⟩ => ⟨S10000x128, .f32⟩
  | .hbm, ⟨74, _⟩ => ⟨S10000x128, .f32⟩
  | .hbm, ⟨75, _⟩ => ⟨S1x128, .f32⟩
  | .hbm, ⟨76, _⟩ => ⟨S10000x128, .f32⟩
  | .hbm, ⟨77, _⟩ => ⟨S10000x128, .f32⟩
  | .hbm, ⟨78, _⟩ => ⟨S_, .f32⟩
  | .hbm, ⟨79, _⟩ => ⟨S10000x128, .f32⟩
  | .hbm, ⟨80, _⟩ => ⟨S10000x128, .f32⟩
  | .hbm, ⟨81, _⟩ => ⟨S10000x128, .f32⟩
  | .hbm, ⟨82, _⟩ => ⟨S10000x128, .f32⟩
  | .hbm, ⟨83, _⟩ => ⟨S10000x128, .i1⟩
  | .hbm, ⟨84, _⟩ => ⟨S10000x128, .f32⟩
  | .hbm, ⟨85, _⟩ => ⟨S10000x128, .f32⟩
  | .hbm, ⟨86, _⟩ => ⟨S10000x128, .f32⟩
  | .hbm, ⟨87, _⟩ => ⟨S10000x128, .f32⟩
  | .hbm, ⟨88, _⟩ => ⟨S10000x128, .f32⟩
  | .hbm, ⟨89, _⟩ => ⟨S10000x128, .f32⟩
  | .hbm, ⟨90, _⟩ => ⟨S10000x128, .f32⟩
  | .hbm, ⟨91, _⟩ => ⟨S10000x128, .f32⟩
  | .hbm, ⟨92, _⟩ => ⟨S_, .f32⟩
  | .hbm, ⟨93, _⟩ => ⟨S10000x128, .f32⟩
  | .hbm, ⟨94, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v18 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_cst_1 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_call2_v5 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_v28 : Ref sig .tc := ⟨.hbm, 91, rfl⟩
abbrev main_cst_2 : Ref sig .tc := ⟨.hbm, 92, rfl⟩
abbrev main_v29 : Ref sig .tc := ⟨.hbm, 93, rfl⟩
abbrev main_v30 : Ref sig .tc := ⟨.hbm, 94, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S10000x48x128_0_1_2 : S1x1x128.BroadcastsInDim S10000x48x128 (![0, 1, 2] : Fin 3 → Fin S10000x48x128.rank)
  bcast_S_S10000x48x128 : S_.BroadcastsInDim S10000x48x128 (![] : Fin 0 → Fin S10000x48x128.rank)
  bcast_S_S10000x48 : S_.BroadcastsInDim S10000x48 (![] : Fin 0 → Fin S10000x48.rank)
  bcast_S10000x48_S10000x48x1_0_1 : S10000x48.BroadcastsInDim S10000x48x1 (![0, 1] : Fin 2 → Fin S10000x48x1.rank)
  bcast_S10000x48x1_S10000x48x128_0_1_2 : S10000x48x1.BroadcastsInDim S10000x48x128 (![0, 1, 2] : Fin 3 → Fin S10000x48x128.rank)
  bcast_S_S10000x48x1 : S_.BroadcastsInDim S10000x48x1 (![] : Fin 0 → Fin S10000x48x1.rank)
  bcast_S1_S1x1x1_2 : S1.BroadcastsInDim S1x1x1 (![2] : Fin 1 → Fin S1x1x1.rank)
  bcast_S1x1x1_S10000x48x1_0_1_2 : S1x1x1.BroadcastsInDim S10000x48x1 (![0, 1, 2] : Fin 3 → Fin S10000x48x1.rank)
  reducesTo_S10000x48x1_S10000x48_d2 : S10000x48x1.ReducesTo [2] S10000x48
  h_S_ : 0 < S_.numel
  bcast_S10000x48_S10000x48x128_0_1 : S10000x48.BroadcastsInDim S10000x48x128 (![0, 1] : Fin 2 → Fin S10000x48x128.rank)
  reducesTo_S10000x48x128_S10000x128_d1 : S10000x48x128.ReducesTo [1] S10000x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x48x25_S25x128_S10000x48x128_2_0_01_1_n_n_wf : DotDims.WF S10000x48x25 S25x128 S10000x48x128 [2] [0] [0, 1] [1] [] []
  dot_S10000x48x128_S128x128_S10000x48x128_2_0_01_1_n_n_wf : DotDims.WF S10000x48x128 S128x128 S10000x48x128 [2] [0] [0, 1] [1] [] []
  dot_S10000x128_S128x128_S10000x128_1_0_0_1_n_n_wf : DotDims.WF S10000x128 S128x128 S10000x128 [1] [0] [0] [1] [] []
  gather_S10000x128_S10000x48x1_S10000x48x128_2_0_n_n_0_2_1128_wf : GatherDims.WF S10000x128 S10000x48x1 S10000x48x128 [2] [0] [] [0] [] 2 ![1, 128]

variable [Facts₀]

def dot_S10000x48x25_S25x128_S10000x48x128_2_0_01_1_n_n : DotDims S10000x48x25 S25x128 S10000x48x128 where
  lhsContracting := [2]
  rhsContracting := [0]
  lhsNonContracting := [0, 1]
  rhsNonContracting := [1]
  lhsBatch := []
  rhsBatch := []
  wf := dot_S10000x48x25_S25x128_S10000x48x128_2_0_01_1_n_n_wf
def dot_S10000x48x128_S128x128_S10000x48x128_2_0_01_1_n_n : DotDims S10000x48x128 S128x128 S10000x48x128 where
  lhsContracting := [2]
  rhsContracting := [0]
  lhsNonContracting := [0, 1]
  rhsNonContracting := [1]
  lhsBatch := []
  rhsBatch := []
  wf := dot_S10000x48x128_S128x128_S10000x48x128_2_0_01_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S10000x48x1_S10000x48x128_2_0_n_n_0_2_1128 : GatherDims S10000x128 S10000x48x1 S10000x48x128 where
  offsetDims := [2]
  collapsedSliceDims := [0]
  operandBatchingDims := []
  startIndicesBatchingDims := []
  startIndexMap := [0]
  indexVectorDim := 2
  sliceSizes := ![1, 128]
  wf := gather_S10000x128_S10000x48x1_S10000x48x128_2_0_n_n_0_2_1128_wf

class Facts : Prop extends Facts₀ where

variable [Facts]
-- ==== Proof.Spec.lean ====
/-
  The filter-generating convolution, entry by entry, on the extended reals.

  For every atom n and each of its 48 neighbour slots k, a two-layer network turns the 25 radial features of the
  pair into 128 filter values: a hidden layer `hid` (an affine map followed by the shifted softplus `ssp`) and an affine
  output layer `filt`. The atoms' own features are projected by a 128×128 matrix (`proj`), and the projected rows of the
  neighbours are fetched by a row lookup `T` that both programs spell with the same operations and that is never opened
  here. Slot k of atom n contributes the fetched row times the filter times the product of the cutoff indicator
  (`cut`: 1 when the distance is at most 5, else 0) and the pair mask; the contributions are summed over the 48 slots
  (`agg`), and a last affine layer followed by the shifted softplus gives the result `out`.

  The shifted softplus is written through the branch both programs take on the extended reals, where no value
  differs from itself: max(v, 0) + log(1 + exp(−|v − 0|)) − log 2, the zero and log 2 kept as the float words the
  programs print.
-/
import Idealize.ShloMosaic.PureOps.Ideal
import Idealize.ShloMosaic.Lib.ValueIdx

noncomputable section

open scoped BigOperators

namespace Cert.FilterConv

open Idealize.ShloMosaic Idealize.ShloMosaic.ValueIdx

/-- The zero word and the word of log 2, as the extended reals they denote. -/
def Z : EReal := Ideal.ofBits .f32 0x00000000#32
def L2 : EReal := Ideal.ofBits .f32 0x3F317218#32
/-- The cutoff radius 5. -/
def R5 : EReal := Ideal.ofBits .f32 0x40A00000#32

/-- The shifted softplus at one value. -/
def ssp (v : EReal) : EReal :=
  (max v Z + FloatOps.log1p (F := Ideal) (φ := .f32) (FloatOps.exp (F := Ideal) (φ := .f32) (-(FloatOps.absf (F := Ideal) (φ := .f32) (v - Z))))) - L2

/-- The cutoff indicator of one distance, as a number. -/
def cut (d : EReal) : EReal := FloatOps.uitofp (F := Ideal) .f32 (FloatOps.cmpf (F := Ideal) (φ := .f32) .ole d R5)

section
variable (T : ((⟨2, ![10000, 128]⟩ : Shape).Idx → EReal) → ((⟨2, ![10000, 48]⟩ : Shape).Idx → BitVec 32) → (⟨3, ![10000, 48, 128]⟩ : Shape).Idx → EReal)
  (x : (⟨2, ![10000, 128]⟩ : Shape).Idx → EReal) (dR : (⟨2, ![10000, 48]⟩ : Shape).Idx → EReal)
  (dRe : (⟨3, ![10000, 48, 25]⟩ : Shape).Idx → EReal) (pm : (⟨2, ![10000, 48]⟩ : Shape).Idx → EReal)
  (nbr : (⟨2, ![10000, 48]⟩ : Shape).Idx → BitVec 32)
  (W1 : (⟨2, ![25, 128]⟩ : Shape).Idx → EReal) (b1 : (⟨1, ![128]⟩ : Shape).Idx → EReal)
  (W2 : (⟨2, ![128, 128]⟩ : Shape).Idx → EReal) (b2 : (⟨1, ![128]⟩ : Shape).Idx → EReal)
  (Win : (⟨2, ![128, 128]⟩ : Shape).Idx → EReal) (Wout : (⟨2, ![128, 128]⟩ : Shape).Idx → EReal)
  (bout : (⟨1, ![128]⟩ : Shape).Idx → EReal)

/-- The hidden layer of the filter network for the pair (n, k), unit i. -/
def hid (n : Fin 10000) (k : Fin 48) (i : Fin 128) : EReal :=
  ssp ((∑ g : Fin 25, dRe (ix3 n k g) * W1 (ix2 g i)) + b1 (ix1 i))

/-- The filter value for the pair (n, k), channel j. -/
def filt (n : Fin 10000) (k : Fin 48) (j : Fin 128) : EReal :=
  (∑ i : Fin 128, hid dRe W1 b1 n k i * W2 (ix2 i j)) + b2 (ix1 j)

/-- The atoms' features projected: row r, channel c. -/
def proj : (⟨2, ![10000, 128]⟩ : Shape).Idx → EReal :=
  fun j => ∑ k : Fin 128, x (ix2 (j 0) k) * Win (ix2 k (j 1))

/-- The filter-weighted, masked sum over the 48 neighbour slots of atom n, channel j. -/
def agg (n : Fin 10000) (j : Fin 128) : EReal :=
  ∑ k : Fin 48, T (proj x Win) nbr (ix3 n k j) * (filt dRe W1 b1 W2 b2 n k j * (cut (dR (ix2 n k)) * pm (ix2 n k)))

/-- The result: atom n, output channel f. -/
def out : (⟨2, ![10000, 128]⟩ : Shape).Idx → EReal :=
  fun q => ssp ((∑ j : Fin 128, agg T x dR dRe pm nbr W1 b1 W2 b2 Win (q 0) j * Wout (ix2 j (q 1))) + bout (ix1 (q 1)))

end

end Cert.FilterConv

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.KRegion0.lean ====
/-
  The first region: the atoms' features projected.

  The region walks the 10000 rows of the feature matrix in five blocks of 2000 rows; at block t it multiplies the
  block by the whole 128×128 projection matrix and writes the product back as rows 2000t … 2000t + 1999 of the
  result. Entry (p, c) of a block's product is the sum over k of the block's row p against column c, and row p of
  block t is row 2000t + p of the matrix, so what block t writes back is block t of the one array `proj`; the five
  blocks tile the array, which therefore ends holding `proj` of the two arrays the region found.
-/
import proofs.«173641_j13245679141058_2_alg».proof.Proof.Gen.KernelIdeal.Frame
import proofs.«173641_j13245679141058_2_alg».proof.Proof.Spec
import proofs.«173641_j13245679141058_2_alg».proof.Proof.LibPlainDot
import Idealize.ShloMosaic.Lib.Pipeline.Value
import Idealize.ShloMosaic.Lib.ValueIdx
import Idealize.ShloMosaic.PureOps.Ideal.Laws

noncomputable section

open scoped BigOperators

namespace Cert.KernelIdeal.Region0

open Idealize.ShloMosaic Idealize.ShloMosaic.ValueIdx Idealize.ShloMosaic.TcCoe Idealize.SL.Sem
open Idealize.ShloMosaic.Pipeline (Dat)
open Cert.KernelIdeal Cert.KernelIdeal.Gen Cert.FilterConv

variable (V : (c : Dev nD) → (b : Ref sig .tc) → Buf (Elt Ideal) ((c : Thread nD τ).loc b))

theorem hz : (![0, 0] : Fin 2 → Nat) = fun _ => 0 := funext fun a => by fin_cases a <;> rfl

/-- Entry (p, c) of a block's product: row p of the block against column c of the projection matrix. -/
theorem pay_apply (x0 : Vec Ideal S2000x128 .f32) (x1 : Vec Ideal S128x128 .f32) (p : Fin 2000) (c : Fin 128) :
    k0_pay1 x0 x1 (ix2 p c) = ∑ k : Fin 128, x0 (ix2 p k) * x1 (ix2 k c) := by
  unfold k0_pay1
  exact PlainDot.matmul_zero_apply dot_S2000x128_S128x128_S2000x128_1_0_0_1_n_n rfl none
    (truncf .bf16 x0 bitsLt_bf16_f32) (truncf .bf16 x1 bitsLt_bf16_f32) (ix2 p c)

/-- Where the blocks sit: block t of the features and of the result starts at row 2000t, the projection matrix is
    read whole at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row p of the features' block at point t is row 2000t + p of the features. -/
theorem feat_apply (c : Dev nD) (t : Fin cfg0.N) (x : S2000x128.Idx) (k : S10000x128.Idx)
    (hk0 : (k 0).val = t.val * 2000 + (x 0).val) (hk1 : (k 1).val = (x 1).val) :
    (iblk0 V c 0 t : Vec Ideal S2000x128 .f32) x = (V c main_arg0 : S10000x128.Idx → EReal) k := by
  obtain ⟨e0, e1, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- The projection matrix's block at every point is the matrix. -/
theorem mat_apply (c : Dev nD) (t : Fin cfg0.N) (x : S128x128.Idx) :
    (iblk0 V c 1 t : Vec Ideal S128x128 .f32) x = (V c main_arg9 : S128x128.Idx → EReal) x := by
  obtain ⟨-, -, e0, e1, -⟩ := idx_facts t
  unfold iblk0
  rw [View.read_apply]
  show V c main_arg9 _ = V c main_arg9 _
  refine congrArg (V c main_arg9) ?_
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- What point t writes back is block t of `proj` of the two arrays as the region found them. -/
theorem flushed_eq (c : Dev nD) (t : Fin cfg0.N) :
    (dat0 V c).flushed 2 t = ((cfg0.win 2).blk t).view.read (Elt Ideal) (proj (V c main_arg0) (V c main_arg9)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨-, -, -, -, e0, e1⟩ := idx_facts t
  funext j
  show k0_pay1 (iblk0 V c 0 t) (iblk0 V c 1 t) j = proj (V c main_arg0) (V c main_arg9) (((cfg0.win 2).blk t).view.emb j)
  have hj0 : (j 0).val < 2000 := (j 0).isLt
  have hj1 : (j 1).val < 128 := (j 1).isLt
  have ht : t.val < 5 := lt_of_lt_of_eq t.isLt N_0
  refine (congrArg (k0_pay1 (iblk0 V c 0 t) (iblk0 V c 1 t)) (eq_ix2 j)).trans ?_
  refine (pay_apply _ _ (j 0) (j 1)).trans ?_
  unfold proj
  refine Finset.sum_congr rfl fun k _ => ?_
  refine congrArg₂ (· * ·) ?_ ?_
  · refine feat_apply V c t _ _ ?_ rfl
    show win0_2.index t (0 : Fin 2) * 2000 + 1 * (j 0).val = t.val * 2000 + (j 0).val
    rw [e0]; omega
  · refine (mat_apply V c t _).trans (congrArg (V c main_arg9) ?_)
    funext a
    apply Fin.ext
    match a with
    | ⟨0, _⟩ => rfl
    | ⟨1, _⟩ => show (j 1).val = win0_2.index t (1 : Fin 2) * 128 + 1 * (j 1).val; rw [e1]; omega

/-- An index of the result is in point t's block iff each coordinate is in the block's range on its axis. -/
theorem mem_blk (t : Fin cfg0.N) (i : S10000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- Row r of the result lies in the block of point r / 2000. -/
theorem cover (i : S10000x128.Idx) : ∃ t : Fin cfg0.N, (cfg0.win 2).flush t = true ∧ i ∈ ((cfg0.win 2).blk t).view.set := by
  have hi0 : (i 0).val < 10000 := (i 0).isLt
  have hi1 : (i 1).val < 128 := (i 1).isLt
  let t : Fin cfg0.N := ⟨(i 0).val / 2000, lt_of_lt_of_eq (by omega : (i 0).val / 2000 < 5) N_0.symm⟩
  obtain ⟨-, -, -, -, e0, e1⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    rw [e0]; show (i 0).val / 2000 * 2000 ≤ (i 0).val ∧ (i 0).val < (i 0).val / 2000 * 2000 + 2000; omega
  | ⟨1, _⟩ =>
    show win0_2.index t (1 : Fin 2) * 128 ≤ (i 1).val ∧ (i 1).val < win0_2.index t (1 : Fin 2) * 128 + 128
    rw [e1]; omega

/-- The region's result array ends holding `proj` of the features and the projection matrix it found. -/
theorem final (c : Dev nD) : (dat0 V c).arrAt 2 cfg0.N = proj (V c main_arg0) (V c main_arg9) :=
  (dat0 V c).arrAt_eq_of_cover 2 _ (fun t _ => flushed_eq V c t) cover

end Cert.KernelIdeal.Region0

end
-- ==== Proof.LibConcatPair.lean ====
/-
  A concatenation of two arrays read at an entry, by coordinates.

  Two arrays of rank 2 stacked along the rows (axis 0) or side by side along the columns (axis 1), and two arrays of
  rank 1 joined end to end: an entry of the result whose coordinate on the joined axis lies below the first piece's
  extent is the first piece's entry at the same coordinates; past it, the second piece's entry with the first
  extent subtracted on that axis. The statements name the entry by its coordinates, so that a value proof meets no
  case analysis on the axis; the result's extent on the joined axis is any `c` for which the shapes concatenate.
-/
import Idealize.ShloMosaic.Lib.Pipeline.Value
import Idealize.ShloMosaic.Lib.ValueIdx

noncomputable section

namespace Idealize.ShloMosaic.ConcatPair

open Idealize.ShloMosaic Idealize.ShloMosaic.ValueIdx

variable {α : Type} {a b c n : Nat}

/-- Stacked rows, an entry in the upper piece. -/
theorem rows_fst (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin a) (q : Fin n) (hr : r.val < c) :
    concatenate ⟨2, ![c, n]⟩ (0 : Fin 2) [⟨⟨2, ![a, n]⟩, x₁⟩, ⟨⟨2, ![b, n]⟩, x₂⟩] h (ix2 ⟨r.val, hr⟩ q) = x₁ (ix2 r q) :=
  concatenate_pair_apply_left (t := ⟨2, ![c, n]⟩) (s₁ := ⟨2, ![a, n]⟩) (s₂ := ⟨2, ![b, n]⟩) (0 : Fin 2) x₁ x₂ h
    (ix2 ⟨r.val, hr⟩ q) rfl (ix2 r q) (fun d => match d with | ⟨0, _⟩ => rfl | ⟨1, _⟩ => rfl)

/-- Stacked rows, an entry in the lower piece. -/
theorem rows_snd (x₁ : (⟨2, ![a, n]⟩ : Shape).Idx → α) (x₂ : (⟨2, ![b, n]⟩ : Shape).Idx → α)
    (h : Shape.Concatenates [(⟨2, ![a, n]⟩ : Shape), ⟨2, ![b, n]⟩] ⟨2, ![c, n]⟩ (0 : Fin 2))
    (r : Fin b) (q : Fin n) (hr : a + r.val < c) :
    concatenate ⟨2, ![c, n]⟩ (0 : Fin 2) [⟨⟨2, ![a, n]⟩, x₁⟩, ⟨⟨2, ![b, n]⟩, x₂⟩] h (ix2 ⟨a + r.val, hr⟩ q) = x₂ (ix2 r q) :=
  concatenate_pair_apply_right (t := ⟨2, ![c, n]⟩) (s₁ := ⟨2, ![a, n]⟩) (s₂ := ⟨2, ![b, n]⟩) (0 : Fin 2) x₁ x₂ h
    (ix2 ⟨a + r.val, hr⟩ q) rfl rfl (ix2 r q)
    (fun d hd => match d, hd with | ⟨0, _⟩, hd => absurd rfl hd | ⟨1, _⟩, _ => rfl)
    (Nat.add_comm r.val a)

/-- Side by side, an entry in the left piece. -/
theorem cols_fst (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin a) (hq : q.val < c) :
    concatenate ⟨2, ![n, c]⟩ (1 : Fin 2) [⟨⟨2, ![n, a]⟩, x₁⟩, ⟨⟨2, ![n, b]⟩, x₂⟩] h (ix2 r ⟨q.val, hq⟩) = x₁ (ix2 r q) :=
  concatenate_pair_apply_left (t := ⟨2, ![n, c]⟩) (s₁ := ⟨2, ![n, a]⟩) (s₂ := ⟨2, ![n, b]⟩) (1 : Fin 2) x₁ x₂ h
    (ix2 r ⟨q.val, hq⟩) rfl (ix2 r q) (fun d => match d with | ⟨0, _⟩ => rfl | ⟨1, _⟩ => rfl)

/-- Side by side, an entry in the right piece. -/
theorem cols_snd (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ (1 : Fin 2))
    (r : Fin n) (q : Fin b) (hq : a + q.val < c) :
    concatenate ⟨2, ![n, c]⟩ (1 : Fin 2) [⟨⟨2, ![n, a]⟩, x₁⟩, ⟨⟨2, ![n, b]⟩, x₂⟩] h (ix2 r ⟨a + q.val, hq⟩) = x₂ (ix2 r q) :=
  concatenate_pair_apply_right (t := ⟨2, ![n, c]⟩) (s₁ := ⟨2, ![n, a]⟩) (s₂ := ⟨2, ![n, b]⟩) (1 : Fin 2) x₁ x₂ h
    (ix2 r ⟨a + q.val, hq⟩) rfl rfl (ix2 r q)
    (fun d hd => match d, hd with | ⟨0, _⟩, _ => rfl | ⟨1, _⟩, hd => absurd rfl hd)
    (Nat.add_comm q.val a)

/-- End to end, an entry in the first piece. -/
theorem vec_fst (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin a) (hq : q.val < c) :
    concatenate ⟨1, ![c]⟩ (0 : Fin 1) [⟨⟨1, ![a]⟩, x₁⟩, ⟨⟨1, ![b]⟩, x₂⟩] h (ix1 ⟨q.val, hq⟩) = x₁ (ix1 q) :=
  concatenate_pair_apply_left (t := ⟨1, ![c]⟩) (s₁ := ⟨1, ![a]⟩) (s₂ := ⟨1, ![b]⟩) (0 : Fin 1) x₁ x₂ h
    (ix1 ⟨q.val, hq⟩) rfl (ix1 q) (fun d => match d with | ⟨0, _⟩ => rfl)

/-- End to end, an entry in the second piece. -/
theorem vec_snd (x₁ : (⟨1, ![a]⟩ : Shape).Idx → α) (x₂ : (⟨1, ![b]⟩ : Shape).Idx → α)
    (h : Shape.Concatenates [(⟨1, ![a]⟩ : Shape), ⟨1, ![b]⟩] ⟨1, ![c]⟩ (0 : Fin 1))
    (q : Fin b) (hq : a + q.val < c) :
    concatenate ⟨1, ![c]⟩ (0 : Fin 1) [⟨⟨1, ![a]⟩, x₁⟩, ⟨⟨1, ![b]⟩, x₂⟩] h (ix1 ⟨a + q.val, hq⟩) = x₂ (ix1 q) :=
  concatenate_pair_apply_right (t := ⟨1, ![c]⟩) (s₁ := ⟨1, ![a]⟩) (s₂ := ⟨1, ![b]⟩) (0 : Fin 1) x₁ x₂ h
    (ix1 ⟨a + q.val, hq⟩) rfl rfl (ix1 q)
    (fun d hd => match d, hd with | ⟨0, _⟩, hd => absurd rfl hd)
    (Nat.add_comm q.val a)

end Idealize.ShloMosaic.ConcatPair

end
-- ==== Proof.LibDense.lean ====
/-
  GENERAL LEMMAS: an affine layer of a multi-layer perceptron, read one output at a time on the extended reals.

  Row `p` of a product of an M×K matrix with a K×N matrix, plus a bias row, depends on row `p` of the left matrix only:
  output `c` is `∑ k, x k · w k c + b c` (`lin`). The positive part (`relu`) and the joining of two rows end to end
  (`cat`) are pointwise in the row as well. The lemmas below read the two spellings of such a layer at an entry
  `(p, c)`: the vector program's (a product into the zero accumulator, the bias a `[1, N]` row broadcast down the rows,
  the positive part against a splat zero) and the host's (a `dot_general`, the bias an `[N]` array broadcast twice,
  the positive part against a broadcast scalar zero). Changes of float format are the identity on the extended reals.
  Also here: two blocks joined side by side read at an entry (`concat_cols_apply`), an `[N]` row broadcast over the rows
  (`rowBias_apply`) and an `[A]` column broadcast over the columns (`colBcast_apply`), each a double `broadcast_in_dim`.
-/
import Idealize.ShloMosaic.PureOps.Ideal.Laws
import Idealize.ShloMosaic.Lib.ValueIdx
import Idealize.ShloMosaic.Lib.ValueLayout
import Idealize.ShloMosaic.Lib.Pipeline.Value
import proofs.«173641_j13245679141058_2_alg».proof.Proof.LibPlainDot
import proofs.«173641_j13245679141058_2_alg».proof.Proof.LibConcatPair

noncomputable section

open scoped BigOperators

namespace Idealize.ShloMosaic.Dense

open Idealize.ShloMosaic Idealize.ShloMosaic.ValueIdx

/-- One output of an affine map: the row `x` against column `c` of `w`, plus the bias at `c`. -/
def lin {K N : Nat} (x : Fin K → EReal) (w : Fin K → Fin N → EReal) (b : Fin N → EReal) (c : Fin N) : EReal :=
  (∑ k : Fin K, x k * w k c) + b c

/-- The positive part, against the zero word (the same word on both sides: never evaluated). -/
def relu (v : EReal) : EReal := max v (Ideal.ofBits .f32 0x00000000#32)

/-- Two rows of lengths `a` and `b` joined end to end. -/
def cat {a b c : Nat} (hc : c = a + b) (u : Fin a → EReal) (v : Fin b → EReal) (j : Fin c) : EReal :=
  if h : j.val < a then u ⟨j.val, h⟩ else v ⟨j.val - a, by have := j.isLt; omega⟩

variable {M K N : Nat}

/-- Two blocks side by side, read at `(r, j)`: row `r` of the first joined with row `r` of the second. -/
theorem concat_cols_apply {n a b c : Nat} (hc : c = a + b) (x₁ : (⟨2, ![n, a]⟩ : Shape).Idx → EReal) (x₂ : (⟨2, ![n, b]⟩ : Shape).Idx → EReal)
    (h : Shape.Concatenates [(⟨2, ![n, a]⟩ : Shape), ⟨2, ![n, b]⟩] ⟨2, ![n, c]⟩ (1 : Fin 2)) (r : Fin n) (j : Fin c) :
    concatenate ⟨2, ![n, c]⟩ (1 : Fin 2) [⟨⟨2, ![n, a]⟩, x₁⟩, ⟨⟨2, ![n, b]⟩, x₂⟩] h (ix2 r j)
      = cat hc (fun q => x₁ (ix2 r q)) (fun q => x₂ (ix2 r q)) j := by
  unfold cat
  split
  · rename_i hlt
    exact ConcatPair.cols_fst x₁ x₂ h r ⟨j.val, hlt⟩ j.isLt
  · rename_i hge
    have hj := j.isLt
    have hlt : a + (j.val - a) < c := by omega
    have e : j = ⟨a + (j.val - a), hlt⟩ := Fin.ext (by show j.val = a + (j.val - a); omega)
    refine (congrArg (fun q => concatenate ⟨2, ![n, c]⟩ (1 : Fin 2) [⟨⟨2, ![n, a]⟩, x₁⟩, ⟨⟨2, ![n, b]⟩, x₂⟩] h (ix2 r q)) e).trans ?_
    exact ConcatPair.cols_snd x₁ x₂ h r ⟨j.val - a, by omega⟩ hlt

/-! ## The vector program's spelling -/

/-- A product into the zero accumulator plus a `[1, N]` bias row broadcast down the rows. -/
theorem matmul_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    addf (matmul D none l r (constant (F := Ideal) ⟨2, ![M, N]⟩ .f32 0x00000000#32)) (broadcastTo ⟨2, ![M, N]⟩ b hb) (ix2 p c)
      = lin (fun k => l (ix2 p k)) (fun k n => r (ix2 k n)) (fun n => b (ix2 (0 : Fin 1) n)) c := by
  rw [addf_apply, PlainDot.matmul_zero_apply D hD none l r (ix2 p c), broadcastTo_1b_ab_apply b hb p c]
  rfl

/-- The same followed by the positive part against a splat zero. -/
theorem matmul_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (c : Fin N) :
    maximumf (addf (matmul D none l r (constant (F := Ideal) ⟨2, ![M, N]⟩ .f32 0x00000000#32)) (broadcastTo ⟨2, ![M, N]⟩ b hb))
        (broadcast ⟨2, ![M, N]⟩ (Scalar.ofBits (F := Ideal) .f32 0x00000000#32)) (ix2 p c)
      = relu (lin (fun k => l (ix2 p k)) (fun k n => r (ix2 k n)) (fun n => b (ix2 (0 : Fin 1) n)) c) := by
  rw [maximumf_apply, matmul_bias_apply D hD l r b hb p c]
  rfl

/-! ## The host's spelling -/

/-- An `[N]` bias broadcast to a `[1, N]` row and then down `M` rows reads, at `(p, c)`, the bias at `c`. -/
theorem rowBias_apply {α : Type} (b : (⟨1, ![N]⟩ : Shape).Idx → α)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    broadcastInDim ⟨2, ![M, N]⟩ ![0, 1] h2 (broadcastInDim ⟨2, ![1, N]⟩ ![1] h1 b) (ix2 p c) = b (ix1 c) := by
  refine (broadcastInDim_apply _ h2 _ (ix2 p c) (ix2 (0 : Fin 1) c) fun a => ?_).trans
    (broadcastInDim_apply _ h1 b (ix2 (0 : Fin 1) c) (ix1 c) fun a => ?_)
  · match a with
    | ⟨0, _⟩ => show 0 = if (1 : Nat) = 1 then 0 else p.val; rw [if_pos rfl]
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A column `[A]` broadcast to `[A, 1]` and then over `B` columns reads, at `(e, q)`, the column at `e`. -/
theorem colBcast_apply {α : Type} {A B : Nat} (w : (⟨1, ![A]⟩ : Shape).Idx → α)
    (h1 : (⟨1, ![A]⟩ : Shape).BroadcastsInDim ⟨2, ![A, 1]⟩ ![0]) (h2 : (⟨2, ![A, 1]⟩ : Shape).BroadcastsInDim ⟨2, ![A, B]⟩ ![0, 1])
    (e : Fin A) (q : Fin B) :
    broadcastInDim ⟨2, ![A, B]⟩ ![0, 1] h2 (broadcastInDim ⟨2, ![A, 1]⟩ ![0] h1 w) (ix2 e q) = w (ix1 e) := by
  refine (broadcastInDim_apply _ h2 _ (ix2 e q) (ix2 e (0 : Fin 1)) fun a => ?_).trans
    (broadcastInDim_apply _ h1 w (ix2 e (0 : Fin 1)) (ix1 e) fun a => ?_)
  · match a with
    | ⟨0, _⟩ =>
      show e.val = if A = 1 then 0 else e.val
      split
      · have := e.isLt; omega
      · rfl
    | ⟨1, _⟩ => show 0 = if (1 : Nat) = 1 then 0 else q.val; rw [if_pos rfl]
  · match a with
    | ⟨0, _⟩ =>
      show e.val = if A = 1 then 0 else e.val
      split
      · have := e.isLt; omega
      · rfl

/-- A `dot_general` plus an `[N]` bias broadcast over the rows. -/
theorem hostDot_bias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (p : Fin M) (c : Fin N) :
    addf (Host.dotGeneral D none l r) (broadcastInDim ⟨2, ![M, N]⟩ ![0, 1] h2 (broadcastInDim ⟨2, ![1, N]⟩ ![1] h1 b)) (ix2 p c)
      = lin (fun k => l (ix2 p k)) (fun k n => r (ix2 k n)) (fun n => b (ix1 n)) c := by
  rw [addf_apply, PlainDot.hostDot_apply D hD none l r (ix2 p c), rowBias_apply b h1 h2 p c]
  rfl

/-- The same followed by the positive part against a broadcast scalar zero. -/
theorem hostDot_bias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![M, N]⟩ ![0, 1])
    (h0 : (⟨0, ![]⟩ : Shape).BroadcastsInDim ⟨2, ![M, N]⟩ ![]) (p : Fin M) (c : Fin N) :
    maximumf (addf (Host.dotGeneral D none l r) (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p c)
      = relu (lin (fun k => l (ix2 p k)) (fun k n => r (ix2 k n)) (fun n => b (ix1 n)) c) := by
  rw [maximumf_apply, hostDot_bias_apply D hD l r b h1 h2 p c,
    broadcastInDim_apply _ h0 _ (ix2 p c) ix0 (fun a => a.elim0)]
  rfl

end Idealize.ShloMosaic.Dense

end
-- ==== Proof.LibBiasRow.lean ====
/-
  GENERAL LEMMAS: an affine layer whose bias is a one-axis array, read one output at a time on the extended reals.

  The vector program keeps a bias as an `[N]` array, recasts it as a `[1, N]` row and broadcasts the row down the rows
  of the product. Recasting changes no entry: the row at `(0, n)` is the array at `n`. So the layer at entry `(p, c)` is
  `∑ k, x k · w k c + b c` with `x` row `p` of the left matrix, as for a `[1, N]` bias (`Dense.matmul_bias_apply`).
  Also here: the positive part against a splat zero at an entry, and the fact that an affine map and a joined row depend
  on their rows only through the rows' entries (`lin_congr`, `cat_congr`), which lets a layer be read from the inside out.
-/
import proofs.«173641_j13245679141058_2_alg».proof.Proof.LibDense

noncomputable section

namespace Idealize.ShloMosaic.Dense

open Idealize.ShloMosaic Idealize.ShloMosaic.ValueIdx

variable {M K N : Nat}

/-- An `[N]` array recast as a `[1, N]` row reads, at `(0, n)`, the array at `n`. -/
theorem shapeCast_row_apply {α : Type} (b : (⟨1, ![N]⟩ : Shape).Idx → α)
    (h : (⟨1, ![N]⟩ : Shape).ShapeCasts ⟨2, ![1, N]⟩) (n : Fin N) :
    shapeCast ⟨2, ![1, N]⟩ b h (ix2 (0 : Fin 1) n) = b (ix1 n) := by
  refine (shapeCast_addUnit_apply ![N] b h (ix2 (0 : Fin 1) n)).trans (congrArg b ?_)
  funext a
  match a with
  | ⟨0, _⟩ => rfl

/-- A product into the zero accumulator plus an `[N]` bias recast as a row and broadcast down the rows. -/
theorem matmul_arrBias_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (c : Fin N) :
    addf (matmul D none l r (constant (F := Ideal) ⟨2, ![M, N]⟩ .f32 0x00000000#32))
        (broadcastTo ⟨2, ![M, N]⟩ (shapeCast ⟨2, ![1, N]⟩ b hc) hb) (ix2 p c)
      = lin (fun k => l (ix2 p k)) (fun k n => r (ix2 k n)) (fun n => b (ix1 n)) c := by
  refine (matmul_bias_apply D hD l r (shapeCast ⟨2, ![1, N]⟩ b hc) hb p c).trans ?_
  exact congrArg (fun f => lin (fun k => l (ix2 p k)) (fun k n => r (ix2 k n)) f c)
    (funext fun n => shapeCast_row_apply b hc n)

/-- The same followed by the positive part against a splat zero. -/
theorem matmul_arrBias_relu_apply {φ₁ φ₂ : FTy} (D : DotDims ⟨2, ![M, K]⟩ ⟨2, ![K, N]⟩ ⟨2, ![M, N]⟩) (hD : D = DotDims.plain M K N)
    (l : FVec Ideal ⟨2, ![M, K]⟩ φ₁) (r : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![M, N]⟩)
    (p : Fin M) (c : Fin N) :
    maximumf (addf (matmul D none l r (constant (F := Ideal) ⟨2, ![M, N]⟩ .f32 0x00000000#32))
          (broadcastTo ⟨2, ![M, N]⟩ (shapeCast ⟨2, ![1, N]⟩ b hc) hb))
        (broadcast ⟨2, ![M, N]⟩ (Scalar.ofBits (F := Ideal) .f32 0x00000000#32)) (ix2 p c)
      = relu (lin (fun k => l (ix2 p k)) (fun k n => r (ix2 k n)) (fun n => b (ix1 n)) c) := by
  refine (matmul_bias_relu_apply D hD l r (shapeCast ⟨2, ![1, N]⟩ b hc) hb p c).trans ?_
  exact congrArg (fun f => relu (lin (fun k => l (ix2 p k)) (fun k n => r (ix2 k n)) f c))
    (funext fun n => shapeCast_row_apply b hc n)

/-- The positive part against a splat zero, at an entry. -/
theorem maximumf_zero_apply {s : Shape} (v : FVec Ideal s .f32) (i : s.Idx) :
    maximumf v (broadcast s (Scalar.ofBits (F := Ideal) .f32 0x00000000#32)) i = relu (v i) := rfl

/-- Two rows joined end to end depend on the rows only through their entries. -/
theorem cat_congr {a b c : Nat} (hc : c = a + b) {u u' : Fin a → EReal} {v v' : Fin b → EReal}
    (hu : ∀ q, u q = u' q) (hv : ∀ q, v q = v' q) (j : Fin c) : cat hc u v j = cat hc u' v' j :=
  congrArg₂ (fun f g => cat hc f g j) (funext hu) (funext hv)

/-- The affine map depends on its row only through the row's entries. -/
theorem lin_congr {x y : Fin K → EReal} (h : ∀ k, x k = y k) (w : Fin K → Fin N → EReal) (b : Fin N → EReal) (c : Fin N) :
    lin x w b c = lin y w b c :=
  congrArg (fun z => lin z w b c) (funext h)

end Idealize.ShloMosaic.Dense

end
-- ==== Proof.LibMergeLead.lean ====
/-
  Rank-3 arrays whose two leading axes are merged into one, read by coordinates.

  A row-major [a, b, c] array and the [a·b, c] matrix with the same elements in the same order: row p·b + q of the
  matrix is row (p, q) of the array. Both directions of the recast are read at an entry here (`merge_apply`,
  `split_apply`), for any extents; the merged extent is a separate number `n` with the equation `r = p·b + q` between
  the row numbers asked of the caller, so that a literal extent (2048 for 32·64) matches as written.

  Also a [b, c] matrix given a leading unit axis and repeated along it a times: entry (p, q, k) of the result is
  entry (q, k) of the matrix (`addLead_apply`, `repeatLead_apply`).
-/
import Idealize.ShloMosaic.Lib.Pipeline.Value
import Idealize.ShloMosaic.Lib.ValueIdx

noncomputable section

namespace Idealize.ShloMosaic.MergeLead

open Idealize.ShloMosaic Idealize.ShloMosaic.ValueIdx

variable {α : Type} {a b c n : Nat}

/-- The [a, b, c] array recast as an [n, c] matrix, at row r = p·b + q and column k, is the array at (p, q, k). -/
theorem merge_apply (v : (⟨3, ![a, b, c]⟩ : Shape).Idx → α) (h : (⟨3, ![a, b, c]⟩ : Shape).ShapeCasts ⟨2, ![n, c]⟩)
    (p : Fin a) (q : Fin b) (k : Fin c) (r : Fin n) (hr : r.val = p.val * b + q.val) :
    shapeCast ⟨2, ![n, c]⟩ v h (ix2 r k) = v (ix3 p q k) :=
  shapeCast_apply v h (ix2 r k) (ix3 p q k) (by
    rw [Shape.rowMajor_val_three, Shape.rowMajor_val_two]
    show (p.val * b + q.val) * c + k.val = r.val * c + k.val
    rw [hr])

/-- The [n, c] matrix recast as an [a, b, c] array, at (p, q, k), is the matrix at row r = p·b + q and column k. -/
theorem split_apply (v : (⟨2, ![n, c]⟩ : Shape).Idx → α) (h : (⟨2, ![n, c]⟩ : Shape).ShapeCasts ⟨3, ![a, b, c]⟩)
    (p : Fin a) (q : Fin b) (k : Fin c) (r : Fin n) (hr : r.val = p.val * b + q.val) :
    shapeCast ⟨3, ![a, b, c]⟩ v h (ix3 p q k) = v (ix2 r k) :=
  shapeCast_apply v h (ix3 p q k) (ix2 r k) (by
    rw [Shape.rowMajor_val_three, Shape.rowMajor_val_two]
    show r.val * c + k.val = (p.val * b + q.val) * c + k.val
    rw [hr])

/-- A [b, c] matrix given a leading unit axis: entry (0, q, k) is entry (q, k). -/
theorem addLead_apply (v : (⟨2, ![b, c]⟩ : Shape).Idx → α) (h : (⟨2, ![b, c]⟩ : Shape).ShapeCasts ⟨3, ![1, b, c]⟩)
    (z : Fin 1) (q : Fin b) (k : Fin c) :
    shapeCast ⟨3, ![1, b, c]⟩ v h (ix3 z q k) = v (ix2 q k) :=
  shapeCast_apply v h (ix3 z q k) (ix2 q k) (by
    rw [Shape.rowMajor_val_three, Shape.rowMajor_val_two]
    show q.val * c + k.val = (z.val * b + q.val) * c + k.val
    have hz : z.val = 0 := by have := z.isLt; omega
    rw [hz, Nat.zero_mul, Nat.zero_add])

/-- A [1, b, c] array repeated a times along its unit axis: entry (p, q, k) is entry (0, q, k). -/
theorem repeatLead_apply (v : (⟨3, ![1, b, c]⟩ : Shape).Idx → α) (h : (⟨3, ![1, b, c]⟩ : Shape).Broadcasts ⟨3, ![a, b, c]⟩)
    (p : Fin a) (q : Fin b) (k : Fin c) :
    broadcastTo ⟨3, ![a, b, c]⟩ v h (ix3 p q k) = v (ix3 (0 : Fin 1) q k) :=
  broadcastTo_apply v h (ix3 p q k) (ix3 (0 : Fin 1) q k) (fun d => by
    match d with
    | ⟨0, _⟩ => show 0 = if (1 : Nat) = 1 then 0 else p.val; rw [if_pos rfl]
    | ⟨1, _⟩ =>
      show q.val = if b = 1 then 0 else q.val
      split
      · have := q.isLt; omega
      · rfl
    | ⟨2, _⟩ =>
      show k.val = if c = 1 then 0 else k.val
      split
      · have := k.isLt; omega
      · rfl)

end Idealize.ShloMosaic.MergeLead

end
-- ==== Proof.LibRank3.lean ====
/-
  Rank-3 arrays read by coordinates, at the exact-real instance: the keepdims forms of a rank-3 array
  ([a,b] → [a,b,1] cast, [a,b,1] → [a,b,c] broadcast), the sum and the maximum of a rank-3 array along its last
  or its middle axis read at `ix2`, the [a] → [a,1] column of maxima, and the batched product
  `out[g, p, q] = Σ_k l[g, p, k] · r[g, q, k]` (both operands contracted on their last axis, the first axis a
  batch axis) read at `ix3 g p q` as a sum over `k`.
-/
import Idealize.ShloMosaic.PureOps.Ideal.Laws
import Idealize.ShloMosaic.Lib.ValueIdx
import Idealize.ShloMosaic.Lib.Pipeline.Value

noncomputable section

open scoped BigOperators

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, q, r)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- The sum of an `[a, b, c]` array along its last axis, accumulated from the zero word: at `(i, j)` the sum over `k`. -/
theorem multiReduction_add_axis2_of3_apply {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) := by
  refine (Ideal.multiReduction_add_single src 0x00000000#32 h hφ hacc (ix2 i j)).trans ?_
  refine Finset.sum_congr rfl fun k _ => congrArg src ?_
  funext d
  match d with
  | ⟨0, _⟩ => exact Fin.ext rfl
  | ⟨1, _⟩ => exact Fin.ext rfl
  | ⟨2, _⟩ => exact Fin.ext rfl

/-- The sum of an `[a, b, c]` array along its middle axis: at `(i, k)` the sum over `j`. -/
theorem multiReduction_add_axis1_of3_apply {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) := by
  refine (Ideal.multiReduction_add_single src 0x00000000#32 h hφ hacc (ix2 i k)).trans ?_
  refine Finset.sum_congr rfl fun j _ => congrArg src ?_
  funext d
  match d with
  | ⟨0, _⟩ => exact Fin.ext rfl
  | ⟨1, _⟩ => exact Fin.ext rfl
  | ⟨2, _⟩ => exact Fin.ext rfl

/-- The maximum of an `[a, b, c]` array along its last axis: at `(i, j)` the fold of `max` over `k` from the accumulator's value. -/
theorem multiReduction_maximumf_axis2_of3_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) := by
  refine (Ideal.multiReduction_maximumf_single src acc h hφ hacc (ix2 i j)).trans ?_
  refine congrArg (fun f => Finset.fold max (Ideal.ofBits .f32 acc) f (Finset.univ : Finset (Fin c))) (funext fun k => congrArg src ?_)
  funext d
  match d with
  | ⟨0, _⟩ => exact Fin.ext rfl
  | ⟨1, _⟩ => exact Fin.ext rfl
  | ⟨2, _⟩ => exact Fin.ext rfl

/-! ### The same reductions with the accumulator word's equation typed as a printed program carries it (`w = w`), so
    that they rewrite a printed term directly. -/

theorem sum_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 h hφ hacc (ix2 i j) = ∑ k : Fin c, src (ix3 i j k) :=
  multiReduction_add_axis2_of3_apply src h hφ hacc i j

theorem sum_axis1_of3 {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (i : Fin a) (k : Fin c) :
    multiReduction .add [1] ⟨2, ![a, c]⟩ src 0x00000000#32 h hφ hacc (ix2 i k) = ∑ j : Fin b, src (ix3 i j k) :=
  multiReduction_add_axis1_of3_apply src h hφ hacc i k

theorem max_axis2_of3 {a b c : ℕ} (src : FVec Ideal ⟨3, ![a, b, c]⟩ .f32)
    (h : (⟨3, ![a, b, c]⟩ : Shape).Reduces [2] ⟨2, ![a, b]⟩) (hφ : FKind.Formats .f32)
    (hacc : (0xFF800000#32 : BitVec 32) = 0xFF800000#32) (i : Fin a) (j : Fin b) :
    multiReduction .maximumf [2] ⟨2, ![a, b]⟩ src 0xFF800000#32 h hφ hacc (ix2 i j)
      = (Finset.univ : Finset (Fin c)).fold max (Ideal.ofBits .f32 0xFF800000#32) (fun k => src (ix3 i j k)) :=
  multiReduction_maximumf_axis2_of3_apply src 0xFF800000#32 h hφ hacc i j

/-- The sum of an `[a, b]` array along its last axis: at `i` the sum of row `i`. -/
theorem sum_axis1_of2 {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext d
  match d with
  | ⟨0, _⟩ => exact Fin.ext rfl
  | ⟨1, _⟩ => exact Fin.ext rfl

/-- The maximum of an `[a, b]` array along its last axis: at `i` the fold of `max` over row `i`. -/
theorem max_axis1_of2 {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (i : Fin a) :
    multiReduction .maximumf [1] ⟨1, ![a]⟩ src 0xFF800000#32 h hφ hacc (ix1 i)
      = (Finset.univ : Finset (Fin b)).fold max (Ideal.ofBits .f32 0xFF800000#32) (fun k => src (ix2 i k)) := by
  refine (Ideal.multiReduction_maximumf_single src 0xFF800000#32 h hφ hacc (ix1 i)).trans ?_
  refine congrArg (fun f => Finset.fold max (Ideal.ofBits .f32 0xFF800000#32) f (Finset.univ : Finset (Fin b))) (funext fun k => congrArg src ?_)
  funext d
  match d with
  | ⟨0, _⟩ => exact Fin.ext rfl
  | ⟨1, _⟩ => exact Fin.ext rfl

/-- An `[a]` array cast to the column `[a, 1]` reads, at `(i, u)`, the operand at `i`. -/
theorem col_of_vec {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem bcast_col {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

namespace Idealize.ShloMosaic.BatchRhsTDot

open Idealize.ShloMosaic Idealize.ShloMosaic.ValueIdx

variable {B M K N : Nat}

private theorem val_congr {n : Nat} {sz : Fin n → Nat} (j : (i : Fin n) → Fin (sz i)) (p q : Nat) (hp : p < n) (hq : q < n) (h : p = q) :
    (j ⟨p, hp⟩).val = (j ⟨q, hq⟩).val := by subst h; rfl

/-- The left operand is read on its batch axis at the entry's first coordinate. -/
theorem lhs_batch (D : DotDims ⟨3, ![B, M, K]⟩ ⟨3, ![B, N, K]⟩ ⟨3, ![B, M, N]⟩) (hlb : D.lhsBatch = [0])
    (j : (⟨3, ![B, M, N]⟩ : Shape).Idx) (s : D.contr.Idx) : (D.lhsIdx j s (0 : Fin 3)).val = (j (0 : Fin 3)).val := by
  unfold DotDims.lhsIdx
  rw [dif_pos (show (0 : Fin 3) ∈ D.lhsBatch by rw [hlb]; exact List.mem_singleton.mpr rfl)]
  simp only [Fin.val_cast]
  exact val_congr j _ _ _ _ (by simp [hlb])

/-- The left operand is read on its row axis at the entry's second coordinate. -/
theorem lhs_row (D : DotDims ⟨3, ![B, M, K]⟩ ⟨3, ![B, N, K]⟩ ⟨3, ![B, M, N]⟩) (hlb : D.lhsBatch = [0]) (hln : D.lhsNonContracting = [1])
    (j : (⟨3, ![B, M, N]⟩ : Shape).Idx) (s : D.contr.Idx) : (D.lhsIdx j s (1 : Fin 3)).val = (j (1 : Fin 3)).val := by
  unfold DotDims.lhsIdx
  rw [dif_neg (show ¬(1 : Fin 3) ∈ D.lhsBatch by rw [hlb]; simp),
    dif_pos (show (1 : Fin 3) ∈ D.lhsNonContracting by rw [hln]; exact List.mem_singleton.mpr rfl)]
  simp only [Fin.val_cast]
  exact val_congr j _ _ _ _ (by simp [hlb, hln])

/-- The right operand is read on its batch axis at the entry's first coordinate. -/
theorem rhs_batch (D : DotDims ⟨3, ![B, M, K]⟩ ⟨3, ![B, N, K]⟩ ⟨3, ![B, M, N]⟩) (hrb : D.rhsBatch = [0])
    (j : (⟨3, ![B, M, N]⟩ : Shape).Idx) (s : D.contr.Idx) : (D.rhsIdx j s (0 : Fin 3)).val = (j (0 : Fin 3)).val := by
  unfold DotDims.rhsIdx
  rw [dif_pos (show (0 : Fin 3) ∈ D.rhsBatch by rw [hrb]; exact List.mem_singleton.mpr rfl)]
  simp only [Fin.val_cast]
  exact val_congr j _ _ _ _ (by simp [hrb])

/-- The right operand is read on its row axis at the entry's third coordinate. -/
theorem rhs_row (D : DotDims ⟨3, ![B, M, K]⟩ ⟨3, ![B, N, K]⟩ ⟨3, ![B, M, N]⟩) (hlb : D.lhsBatch = [0]) (hln : D.lhsNonContracting = [1])
    (hrb : D.rhsBatch = [0]) (hrn : D.rhsNonContracting = [1])
    (j : (⟨3, ![B, M, N]⟩ : Shape).Idx) (s : D.contr.Idx) : (D.rhsIdx j s (1 : Fin 3)).val = (j (2 : Fin 3)).val := by
  unfold DotDims.rhsIdx
  rw [dif_neg (show ¬(1 : Fin 3) ∈ D.rhsBatch by rw [hrb]; simp),
    dif_pos (show (1 : Fin 3) ∈ D.rhsNonContracting by rw [hrn]; exact List.mem_singleton.mpr rfl)]
  simp only [Fin.val_cast]
  exact val_congr j _ _ _ _ (by simp [hlb, hln, hrn])

/-- The contraction of a batched product whose operands are both contracted on their last axis, re-indexed by the one
    contracted coordinate: stated for any dimension record with these axis lists. -/
theorem sum_eq (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (l : (⟨3, ![B, M, K]⟩ : Shape).Idx → EReal) (r : (⟨3, ![B, N, K]⟩ : Shape).Idx → EReal) (g : Fin B) (p : Fin M) (q : Fin N) :
    ∑ s : D.contr.Idx, l (D.lhsIdx (ix3 g p q) s) * r (D.rhsIdx (ix3 g p q) s) = ∑ k : Fin K, l (ix3 g p k) * r (ix3 g q k) := by
  have hr : D.contr.rank = 1 := by rw [DotDims.rank_contr, hlc]; rfl
  have hs : D.contr.size ⟨0, by omega⟩ = K := by
    have := D.size_contr 0 (by rw [hlc]; exact Nat.one_pos)
    simpa [hlc] using this
  rw [← Equiv.sum_comp (contrEquiv1 D K hr hs).symm]
  refine Finset.sum_congr rfl fun k _ => ?_
  have hk := contrEquiv1_symm_val D K hr hs k
  have el : D.lhsIdx (ix3 g p q) ((contrEquiv1 D K hr hs).symm k) = ix3 g p k :=
    funext fun a => Fin.ext (by
      match a with
      | ⟨0, _⟩ => exact lhs_batch D hlb _ _
      | ⟨1, _⟩ => exact lhs_row D hlb hln _ _
      | ⟨2, _⟩ => exact (D.lhsIdx_val_of_single hlc _ _).trans hk)
  have er : D.rhsIdx (ix3 g p q) ((contrEquiv1 D K hr hs).symm k) = ix3 g q k :=
    funext fun a => Fin.ext (by
      match a with
      | ⟨0, _⟩ => exact rhs_batch D hrb _ _
      | ⟨1, _⟩ => exact rhs_row D hlb hln hrb hrn _ _
      | ⟨2, _⟩ => exact (D.rhsIdx_val_of_single hrc _ _).trans hk)
  exact congrArg₂ (fun x y => l x * r y) el er

/-- A `tpu.matmul` of such a product into the zero accumulator, at an entry given by its coordinates. -/
theorem matmul_zero_ix3 {φ₁ φ₂ : FTy} (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (l : FVec Ideal ⟨3, ![B, M, K]⟩ φ₁) (r : FVec Ideal ⟨3, ![B, N, K]⟩ φ₂)
    (g : Fin B) (p : Fin M) (q : Fin N) :
    matmul D prec l r (constant (F := Ideal) ⟨3, ![B, M, N]⟩ .f32 0x00000000#32) (ix3 g p q)
      = ∑ k : Fin K, l (ix3 g p k) * r (ix3 g q k) := by
  simp only [matmul]
  rw [Ideal.matmul_constant_zero_apply]
  exact sum_eq D hlc hrc hln hrn hlb hrb l r g p q

/-- The host's `dot_general` of such a product, at an entry given by its coordinates. -/
theorem dotGeneral_ix3 {φ₁ φ₂ : FTy} (D : DotDims ⟨3, ![B, M, K]⟩ ⟨3, ![B, N, K]⟩ ⟨3, ![B, M, N]⟩)
    (hlc : D.lhsContracting = [2]) (hrc : D.rhsContracting = [2]) (hln : D.lhsNonContracting = [1])
    (hrn : D.rhsNonContracting = [1]) (hlb : D.lhsBatch = [0]) (hrb : D.rhsBatch = [0])
    (prec : Option ContractPrecision) (sched : HostSchedule) (l : FVec Ideal ⟨3, ![B, M, K]⟩ φ₁) (r : FVec Ideal ⟨3, ![B, N, K]⟩ φ₂)
    (g : Fin B) (p : Fin M) (q : Fin N) :
    FloatOps.dotGeneral D prec sched l r (ix3 g p q) = ∑ k : Fin K, l (ix3 g p k) * r (ix3 g q k) := by
  rw [Ideal.dotGeneral_apply]
  exact sum_eq D hlc hrc hln hrn hlb hrb l r g p q

end Idealize.ShloMosaic.BatchRhsTDot

end
-- ==== Proof.KPayload.lean ====
/-
  The second region's arithmetic at one point of its grid, entry by entry.

  At a grid point the region holds a block of 200 atoms: their 48×25 radial features, their 48 cutoff-and-mask
  weights, the 48×128 fetched neighbour rows, and the network's matrices and biases whole. It flattens the
  (atom, slot) pairs into 9600 rows, runs the two-layer filter network on them as two matrix products with a bias row
  each (the shifted softplus between), folds the rows back into (atom, slot, channel), scales by the weights, multiplies
  by the fetched rows, sums over the 48 slots, and applies the output layer and the shifted softplus.

  Read at an entry, each step is the textbook one: row p·48 + k of the flattened block is pair (p, k); a product into the
  zero accumulator plus a broadcast bias row is the affine map `lin`; the slot sum is a finite sum. The shifted
  softplus as this program spells it selects on "v − 0 is ordered and differs from itself", which never holds, and
  writes the negation as 0 − |·|: it is the specification's `ssp`.
-/
import proofs.«173641_j13245679141058_2_alg».proof.Proof.Gen.KernelIdeal.Skeleton
import proofs.«173641_j13245679141058_2_alg».proof.Proof.Spec
import proofs.«173641_j13245679141058_2_alg».proof.Proof.LibBiasRow
import proofs.«173641_j13245679141058_2_alg».proof.Proof.LibMergeLead
import proofs.«173641_j13245679141058_2_alg».proof.Proof.LibRank3
import Idealize.ShloMosaic.Lib.Pipeline.Value
import Idealize.ShloMosaic.Lib.ValueIdx
import Idealize.ShloMosaic.PureOps.Ideal.Laws

noncomputable section

open scoped BigOperators

namespace Cert.KernelIdeal.Payload

open Idealize.ShloMosaic Idealize.ShloMosaic.ValueIdx Idealize.ShloMosaic.Dense
open Cert.KernelIdeal Cert.KernelIdeal.Facts₀ Cert.FilterConv
open Cert.KernelIdeal.Gen (k1_pay1 k1_pay2)

/-- The shifted softplus at one value, as the vector program spells it. -/
def sspK (v : EReal) : EReal :=
  Scalar.select (FloatOps.cmpf (F := Ideal) (φ := .f32) .one (v - Z) (v - Z)) (v + Z)
    (max v Z + FloatOps.log1p (F := Ideal) (φ := .f32) (FloatOps.exp (F := Ideal) (φ := .f32) (Z - FloatOps.absf (F := Ideal) (φ := .f32) (v - Z)))) - L2

/-- No extended real differs from itself, and 0 − a is −a: the program's spelling is the specification's. -/
theorem sspK_eq (v : EReal) : sspK v = ssp v := by
  unfold sspK ssp
  have hc : FloatOps.cmpf (F := Ideal) (φ := .f32) .one (v - Z) (v - Z) = 0#1 := by
    rw [Ideal.cmpf_def]; simp [Ideal.cmp]
  have hn : Z - FloatOps.absf (F := Ideal) (φ := .f32) (v - Z) = -(FloatOps.absf (F := Ideal) (φ := .f32) (v - Z)) := by
    have hz : Z = 0 := Ideal.ofBits_zero_f32
    rw [hz, zero_sub]
  rw [hc, select_zero, hn]

/-- The same applied to every entry of an array. -/
def sspV {s : Shape} (v : FVec Ideal s .f32) : FVec Ideal s .f32 := fun i => sspK (v i)

/-- The hidden layer before its activation, on the 9600 flattened (atom, slot) rows. -/
def hidV (x0 : Vec Ideal S200x48x25 .f32) (x3 : Vec Ideal S25x128 .f32) (x4 : Vec Ideal S128 .f32) : FVec Ideal S9600x128 .f32 :=
  addf (matmul dot_S9600x25_S25x128_S9600x128_1_0_0_1_n_n none
      (shapeCast S9600x25 (truncf .bf16 x0 bitsLt_bf16_f32) shapeCasts_S200x48x25_S9600x25) (truncf .bf16 x3 bitsLt_bf16_f32)
      (constant S9600x128 .f32 0x00000000#32))
    (broadcastTo S9600x128 (shapeCast S1x128 x4 shapeCasts_S128_S1x128) broadcasts_S1x128_S9600x128)

/-- The filter values on the flattened rows. -/
def filtV (x0 : Vec Ideal S200x48x25 .f32) (x3 : Vec Ideal S25x128 .f32) (x4 : Vec Ideal S128 .f32) (x5 : Vec Ideal S128x128 .f32)
    (x6 : Vec Ideal S128 .f32) : FVec Ideal S9600x128 .f32 :=
  addf (matmul dot_S9600x128_S128x128_S9600x128_1_0_0_1_n_n none
      (truncf .bf16 (sspV (hidV x0 x3 x4)) bitsLt_bf16_f32) (truncf .bf16 x5 bitsLt_bf16_f32)
      (constant S9600x128 .f32 0x00000000#32))
    (broadcastTo S9600x128 (shapeCast S1x128 x6 shapeCasts_S128_S1x128) broadcasts_S1x128_S9600x128)

/-- The first payload is the filter values folded back into (atom, slot, channel) and scaled by the weights. -/
theorem pay2_eq (x0 : Vec Ideal S200x48x25 .f32) (x3 : Vec Ideal S25x128 .f32) (x4 : Vec Ideal S128 .f32) (x5 : Vec Ideal S128x128 .f32)
    (x6 : Vec Ideal S128 .f32) (x1 : Vec Ideal S200x48 .f32) :
    k1_pay2 x0 x3 x4 x5 x6 x1
      = mulf (shapeCast S200x48x128 (filtV x0 x3 x4 x5 x6) shapeCasts_S9600x128_S200x48x128)
          (broadcastTo S200x48x128 (shapeCast S200x48x1 (shapeCast S200x48 x1 shapeCasts_S200x48_S200x48) shapeCasts_S200x48_S200x48x1)
            broadcasts_S200x48x1_S200x48x128) := rfl

/-- The second payload: the slot sum of fetched rows times scaled filters, the output layer, the activation. -/
theorem pay1_eq (v39 : FVec Ideal S200x48x128 .f32) (x2 : Vec Ideal S200x48x128 .f32) (x7 : Vec Ideal S128x128 .f32) (x8 : Vec Ideal S128 .f32) :
    k1_pay1 v39 x2 x7 x8
      = sspV (addf (matmul dot_S200x128_S128x128_S200x128_1_0_0_1_n_n none
            (truncf .bf16 (multiReduction .add [1] S200x128 (mulf (shapeCast S200x48x128 x2 shapeCasts_S200x48x128_S200x48x128) v39)
              0x00000000#32 reduces_S200x48x128_S200x128 (.inl rfl) rfl) bitsLt_bf16_f32)
            (truncf .bf16 x7 bitsLt_bf16_f32) (constant S200x128 .f32 0x00000000#32))
          (broadcastTo S200x128 (shapeCast S1x128 x8 shapeCasts_S128_S1x128) broadcasts_S1x128_S200x128)) := rfl

/-- The hidden layer for pair (p, k), unit i, as an affine map of the pair's 25 features. -/
theorem hidV_apply (x0 : Vec Ideal S200x48x25 .f32) (x3 : Vec Ideal S25x128 .f32) (x4 : Vec Ideal S128 .f32)
    (p : Fin 200) (k : Fin 48) (i : Fin 128) (r : Fin 9600) (hr : r.val = p.val * 48 + k.val) :
    hidV x0 x3 x4 (ix2 r i) = lin (fun g => x0 (ix3 p k g)) (fun g n => x3 (ix2 g n)) (fun n => x4 (ix1 n)) i := by
  unfold hidV
  refine (matmul_arrBias_apply dot_S9600x25_S25x128_S9600x128_1_0_0_1_n_n rfl _ _ x4 shapeCasts_S128_S1x128
    broadcasts_S1x128_S9600x128 r i).trans ?_
  refine lin_congr (fun g => ?_) _ _ i
  exact MergeLead.merge_apply _ shapeCasts_S200x48x25_S9600x25 p k g r hr

/-- The filter value for pair (p, k), channel j. -/
theorem filtV_apply (x0 : Vec Ideal S200x48x25 .f32) (x3 : Vec Ideal S25x128 .f32) (x4 : Vec Ideal S128 .f32) (x5 : Vec Ideal S128x128 .f32)
    (x6 : Vec Ideal S128 .f32) (p : Fin 200) (k : Fin 48) (j : Fin 128) (r : Fin 9600) (hr : r.val = p.val * 48 + k.val) :
    filtV x0 x3 x4 x5 x6 (ix2 r j)
      = lin (fun i => sspK (lin (fun g => x0 (ix3 p k g)) (fun g n => x3 (ix2 g n)) (fun n => x4 (ix1 n)) i))
          (fun i n => x5 (ix2 i n)) (fun n => x6 (ix1 n)) j := by
  unfold filtV
  refine (matmul_arrBias_apply dot_S9600x128_S128x128_S9600x128_1_0_0_1_n_n rfl _ _ x6 shapeCasts_S128_S1x128
    broadcasts_S1x128_S9600x128 r j).trans ?_
  refine lin_congr (fun i => ?_) _ _ j
  show sspK (hidV x0 x3 x4 (ix2 r i)) = _
  rw [hidV_apply x0 x3 x4 p k i r hr]

/-- The scaled filter at (p, k, j): the filter value times the pair's weight. -/
theorem pay2_apply (x0 : Vec Ideal S200x48x25 .f32) (x3 : Vec Ideal S25x128 .f32) (x4 : Vec Ideal S128 .f32) (x5 : Vec Ideal S128x128 .f32)
    (x6 : Vec Ideal S128 .f32) (x1 : Vec Ideal S200x48 .f32) (p : Fin 200) (k : Fin 48) (j : Fin 128) :
    k1_pay2 x0 x3 x4 x5 x6 x1 (ix3 p k j)
      = lin (fun i => sspK (lin (fun g => x0 (ix3 p k g)) (fun g n => x3 (ix2 g n)) (fun n => x4 (ix1 n)) i))
          (fun i n => x5 (ix2 i n)) (fun n => x6 (ix1 n)) j * x1 (ix2 p k) := by
  have hlt : p.val * 48 + k.val < 9600 := by have := p.isLt; have := k.isLt; omega
  rw [pay2_eq, mulf_apply]
  refine congrArg₂ (· * ·) ?_ ?_
  · refine (MergeLead.split_apply (filtV x0 x3 x4 x5 x6) shapeCasts_S9600x128_S200x48x128 p k j ⟨p.val * 48 + k.val, hlt⟩ rfl).trans ?_
    exact filtV_apply x0 x3 x4 x5 x6 p k j ⟨p.val * 48 + k.val, hlt⟩ rfl
  · refine (broadcastTo_ab1_abc_apply _ broadcasts_S200x48x1_S200x48x128 p k j).trans ?_
    refine (shapeCast_ab_ab1_apply _ shapeCasts_S200x48_S200x48x1 p k (0 : Fin 1)).trans ?_
    exact congrFun (shapeCast_self x1 shapeCasts_S200x48_S200x48) (ix2 p k)

/-- The block's result at (p, f): the activation of the output layer on the slot sums of atom p. -/
theorem pay1_apply (v39 : FVec Ideal S200x48x128 .f32) (x2 : Vec Ideal S200x48x128 .f32) (x7 : Vec Ideal S128x128 .f32) (x8 : Vec Ideal S128 .f32)
    (p : Fin 200) (f : Fin 128) :
    k1_pay1 v39 x2 x7 x8 (ix2 p f)
      = sspK (lin (fun j => ∑ k : Fin 48, x2 (ix3 p k j) * v39 (ix3 p k j)) (fun j n => x7 (ix2 j n)) (fun n => x8 (ix1 n)) f) := by
  rw [pay1_eq]
  show sspK _ = sspK _
  refine congrArg sspK ?_
  refine (matmul_arrBias_apply dot_S200x128_S128x128_S200x128_1_0_0_1_n_n rfl _ _ x8 shapeCasts_S128_S1x128
    broadcasts_S1x128_S200x128 p f).trans ?_
  refine lin_congr (fun j => ?_) _ _ f
  refine (sum_axis1_of3 (mulf (shapeCast S200x48x128 x2 shapeCasts_S200x48x128_S200x48x128) v39) reduces_S200x48x128_S200x128 (.inl rfl) rfl p j).trans ?_
  refine Finset.sum_congr rfl fun k _ => ?_
  rw [mulf_apply]
  exact congrArg (· * v39 (ix3 p k j)) (congrFun (shapeCast_self x2 shapeCasts_S200x48x128_S200x48x128) (ix3 p k j))

end Cert.KernelIdeal.Payload

end
-- ==== Proof.KRegion1.lean ====
/-
  The second region: from blocks of 200 atoms to the whole result.

  The region walks the 10000 atoms in fifty blocks of 200. At block t it reads rows 200t … 200t + 199 of the radial
  features, of the cutoff-and-mask weights and of the fetched neighbour rows, and the network's matrices and biases
  whole; it writes rows 200t … 200t + 199 of the result. Row p of a block being row 200t + p of its array, what block t
  writes back is block t of one array `G1` — per atom and output channel, the activation of the output layer on the
  slot sums of fetched row × (filter × weight) — and the fifty blocks tile the result.
-/
import proofs.«173641_j13245679141058_2_alg».proof.Proof.Gen.KernelIdeal.Frame
import proofs.«173641_j13245679141058_2_alg».proof.Proof.Spec
import proofs.«173641_j13245679141058_2_alg».proof.Proof.KPayload
import Idealize.ShloMosaic.Lib.Pipeline.Value
import Idealize.ShloMosaic.Lib.ValueIdx

noncomputable section

open scoped BigOperators

namespace Cert.KernelIdeal.Region1

open Idealize.ShloMosaic Idealize.ShloMosaic.ValueIdx Idealize.ShloMosaic.TcCoe Idealize.SL.Sem Idealize.ShloMosaic.Dense
open Idealize.ShloMosaic.Pipeline (Dat)
open Cert.KernelIdeal Cert.KernelIdeal.Gen Cert.FilterConv Cert.KernelIdeal.Payload

/-- An affine map depends on its row, its matrix and its bias only through their entries. -/
theorem lin_ext {K N : Nat} {x y : Fin K → EReal} {w w' : Fin K → Fin N → EReal} {b b' : Fin N → EReal}
    (hx : ∀ k, x k = y k) (hw : ∀ k n, w k n = w' k n) (hb : ∀ n, b n = b' n) (c : Fin N) : lin x w b c = lin y w' b' c := by
  unfold lin
  exact congrArg₂ (· + ·) (Finset.sum_congr rfl fun k _ => congrArg₂ (· * ·) (hx k) (hw k c)) (hb c)

/-- The region's result as one array: atom n, channel f, from the arrays the region reads — the radial features, the
    cutoff-and-mask weights `C`, the fetched neighbour rows `Y3`, the network's matrices and biases. -/
def G1 (dRe : S10000x48x25.Idx → EReal) (C : S10000x48.Idx → EReal) (Y3 : S10000x48x128.Idx → EReal)
    (W1 : S25x128.Idx → EReal) (b1 : S128.Idx → EReal) (W2 : S128x128.Idx → EReal) (b2 : S128.Idx → EReal)
    (Wout : S128x128.Idx → EReal) (bout : S128.Idx → EReal) : S10000x128.Idx → EReal := fun q =>
  ssp (lin (fun j => ∑ k : Fin 48, Y3 (ix3 (q 0) k j) * (filt dRe W1 b1 W2 b2 (q 0) k j * C (ix2 (q 0) k)))
    (fun j n => Wout (ix2 j n)) (fun n => bout (ix1 n)) (q 1))

/-- A block's result at (p, f) is `G1` at (n, f) when row p of each blocked input is row n of its array and the
    whole inputs are the arrays. -/
theorem blk_eq (x0 : Vec Ideal S200x48x25 .f32) (x1 : Vec Ideal S200x48 .f32) (x2 : Vec Ideal S200x48x128 .f32)
    (x3 : Vec Ideal S25x128 .f32) (x4 : Vec Ideal S128 .f32) (x5 : Vec Ideal S128x128 .f32) (x6 : Vec Ideal S128 .f32)
    (x7 : Vec Ideal S128x128 .f32) (x8 : Vec Ideal S128 .f32)
    (dRe : S10000x48x25.Idx → EReal) (C : S10000x48.Idx → EReal) (Y3 : S10000x48x128.Idx → EReal)
    (W1 : S25x128.Idx → EReal) (b1 : S128.Idx → EReal) (W2 : S128x128.Idx → EReal) (b2 : S128.Idx → EReal)
    (Wout : S128x128.Idx → EReal) (bout : S128.Idx → EReal) (p : Fin 200) (n : Fin 10000)
    (h0 : ∀ (k : Fin 48) (g : Fin 25), x0 (ix3 p k g) = dRe (ix3 n k g))
    (h1 : ∀ k : Fin 48, x1 (ix2 p k) = C (ix2 n k))
    (h2 : ∀ (k : Fin 48) (j : Fin 128), x2 (ix3 p k j) = Y3 (ix3 n k j))
    (h3 : ∀ (g : Fin 25) (i : Fin 128), x3 (ix2 g i) = W1 (ix2 g i)) (h4 : ∀ i : Fin 128, x4 (ix1 i) = b1 (ix1 i))
    (h5 : ∀ i j : Fin 128, x5 (ix2 i j) = W2 (ix2 i j)) (h6 : ∀ j : Fin 128, x6 (ix1 j) = b2 (ix1 j))
    (h7 : ∀ j f : Fin 128, x7 (ix2 j f) = Wout (ix2 j f)) (h8 : ∀ f : Fin 128, x8 (ix1 f) = bout (ix1 f)) (f : Fin 128) :
    k1_pay1 (k1_pay2 x0 x3 x4 x5 x6 x1) x2 x7 x8 (ix2 p f) = G1 dRe C Y3 W1 b1 W2 b2 Wout bout (ix2 n f) := by
  rw [pay1_apply, sspK_eq]
  show ssp _ = ssp (lin _ _ _ f)
  refine congrArg ssp (lin_ext (fun j => ?_) h7 h8 f)
  refine Finset.sum_congr rfl fun k _ => ?_
  rw [pay2_apply, h2 k j, h1 k]
  refine congrArg (fun z => Y3 (ix3 n k j) * (z * C (ix2 n k))) ?_
  show lin _ _ _ j = lin (fun i => hid dRe W1 b1 n k i) (fun i n' => W2 (ix2 i n')) (fun n' => b2 (ix1 n')) j
  refine lin_ext (fun i => ?_) h5 h6 j
  rw [sspK_eq]
  show ssp _ = ssp (lin (fun g => dRe (ix3 n k g)) (fun g n' => W1 (ix2 g n')) (fun n' => b1 (ix1 n')) i)
  exact congrArg ssp (lin_ext (fun g => h0 k g) h3 h4 i)

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- Where the blocks sit: block t of each blocked input and of the result starts at atom 200t; every other input is
    read whole at every point. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 2) = t.val ∧ win1_1.index t (1 : Fin 2) = 0)
    ∧ (win1_2.index t (0 : Fin 3) = t.val ∧ win1_2.index t (1 : Fin 3) = 0 ∧ win1_2.index t (2 : Fin 3) = 0)
    ∧ (win1_3.index t (0 : Fin 2) = 0 ∧ win1_3.index t (1 : Fin 2) = 0)
    ∧ win1_4.index t (0 : Fin 1) = 0
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0
    ∧ (win1_9.index t (0 : Fin 2) = t.val ∧ win1_9.index t (1 : Fin 2) = 0) :=
  (by decide +kernel : ∀ t : Fin grid1.N, _)

/-- Atom p of the radial features' block at point t is atom 200t + p. -/
theorem in0_apply (c : Dev nD) (t : Fin cfg1.N) (x : S200x48x25.Idx) (k : S10000x48x25.Idx)
    (hk0 : (k 0).val = t.val * 200 + (x 0).val) (hk1 : (k 1).val = (x 1).val) (hk2 : (k 2).val = (x 2).val) :
    (iblk1 V c 0 t : Vec Ideal S200x48x25 .f32) x = (V c main_arg2 : S10000x48x25.Idx → EReal) k := by
  obtain ⟨⟨e0, e1, e2⟩, -⟩ := idx_facts t
  unfold iblk1
  rw [View.read_apply]
  show V c main_arg2 _ = V c main_arg2 _
  refine congrArg (V c main_arg2) ?_
  funext a
  apply Fin.ext
  match a with
  | ⟨0, _⟩ => show win1_0.index t (0 : Fin 3) * 200 + 1 * (x 0).val = (k 0).val; rw [e0, hk0]; omega
  | ⟨1, _⟩ => show win1_0.index t (1 : Fin 3) * 48 + 1 * (x 1).val = (k 1).val; rw [e1, hk1]; omega
  | ⟨2, _⟩ => show win1_0.index t (2 : Fin 3) * 25 + 1 * (x 2).val = (k 2).val; rw [e2, hk2]; omega

/-- Atom p of the weights' block at point t is atom 200t + p. -/
theorem in1_apply (c : Dev nD) (t : Fin cfg1.N) (x : S200x48.Idx) (k : S10000x48.Idx)
    (hk0 : (k 0).val = t.val * 200 + (x 0).val) (hk1 : (k 1).val = (x 1).val) :
    (iblk1 V c 1 t : Vec Ideal S200x48 .f32) x = (V c main_v5 : S10000x48.Idx → EReal) k := by
  obtain ⟨-, ⟨e0, e1⟩, -⟩ := idx_facts t
  unfold iblk1
  rw [View.read_apply]
  show V c main_v5 _ = V c main_v5 _
  refine congrArg (V c main_v5) ?_
  funext a
  apply Fin.ext
  match a with
  | ⟨0, _⟩ => show win1_1.index t (0 : Fin 2) * 200 + 1 * (x 0).val = (k 0).val; rw [e0, hk0]; omega
  | ⟨1, _⟩ => show win1_1.index t (1 : Fin 2) * 48 + 1 * (x 1).val = (k 1).val; rw [e1, hk1]; omega

/-- Atom p of the fetched rows' block at point t is atom 200t + p. -/
theorem in2_apply (c : Dev nD) (t : Fin cfg1.N) (x : S200x48x128.Idx) (k : S10000x48x128.Idx)
    (hk0 : (k 0).val = t.val * 200 + (x 0).val) (hk1 : (k 1).val = (x 1).val) (hk2 : (k 2).val = (x 2).val) :
    (iblk1 V c 2 t : Vec Ideal S200x48x128 .f32) x = (V c main_v1 : S10000x48x128.Idx → EReal) k := by
  obtain ⟨-, -, ⟨e0, e1, e2⟩, -⟩ := idx_facts t
  unfold iblk1
  rw [View.read_apply]
  show V c main_v1 _ = V c main_v1 _
  refine congrArg (V c main_v1) ?_
  funext a
  apply Fin.ext
  match a with
  | ⟨0, _⟩ => show win1_2.index t (0 : Fin 3) * 200 + 1 * (x 0).val = (k 0).val; rw [e0, hk0]; omega
  | ⟨1, _⟩ => show win1_2.index t (1 : Fin 3) * 48 + 1 * (x 1).val = (k 1).val; rw [e1, hk1]; omega
  | ⟨2, _⟩ => show win1_2.index t (2 : Fin 3) * 128 + 1 * (x 2).val = (k 2).val; rw [e2, hk2]; omega

/-- The first layer's matrix is read whole at every point. -/
theorem in3_apply (c : Dev nD) (t : Fin cfg1.N) (x : S25x128.Idx) :
    (iblk1 V c 3 t : Vec Ideal S25x128 .f32) x = (V c main_arg5 : S25x128.Idx → EReal) x := by
  obtain ⟨-, -, -, ⟨e0, e1⟩, -⟩ := idx_facts t
  unfold iblk1
  rw [View.read_apply]
  show V c main_arg5 _ = V c main_arg5 _
  refine congrArg (V c main_arg5) ?_
  funext a
  apply Fin.ext
  match a with
  | ⟨0, _⟩ => show win1_3.index t (0 : Fin 2) * 25 + 1 * (x 0).val = (x 0).val; rw [e0]; omega
  | ⟨1, _⟩ => show win1_3.index t (1 : Fin 2) * 128 + 1 * (x 1).val = (x 1).val; rw [e1]; omega

/-- The first layer's bias is read whole at every point. -/
theorem in4_apply (c : Dev nD) (t : Fin cfg1.N) (x : S128.Idx) :
    (iblk1 V c 4 t : Vec Ideal S128 .f32) x = (V c main_arg6 : S128.Idx → EReal) x := by
  obtain ⟨-, -, -, -, e0, -⟩ := idx_facts t
  unfold iblk1
  rw [View.read_apply]
  show V c main_arg6 _ = V c main_arg6 _
  refine congrArg (V c main_arg6) ?_
  funext a
  apply Fin.ext
  match a with
  | ⟨0, _⟩ => show win1_4.index t (0 : Fin 1) * 128 + 1 * (x 0).val = (x 0).val; rw [e0]; omega

/-- The second layer's matrix is read whole at every point. -/
theorem in5_apply (c : Dev nD) (t : Fin cfg1.N) (x : S128x128.Idx) :
    (iblk1 V c 5 t : Vec Ideal S128x128 .f32) x = (V c main_arg7 : S128x128.Idx → EReal) x := by
  obtain ⟨-, -, -, -, -, ⟨e0, e1⟩, -⟩ := idx_facts t
  unfold iblk1
  rw [View.read_apply]
  show V c main_arg7 _ = V c main_arg7 _
  refine congrArg (V c main_arg7) ?_
  funext a
  apply Fin.ext
  match a with
  | ⟨0, _⟩ => show win1_5.index t (0 : Fin 2) * 128 + 1 * (x 0).val = (x 0).val; rw [e0]; omega
  | ⟨1, _⟩ => show win1_5.index t (1 : Fin 2) * 128 + 1 * (x 1).val = (x 1).val; rw [e1]; omega

/-- The second layer's bias is read whole at every point. -/
theorem in6_apply (c : Dev nD) (t : Fin cfg1.N) (x : S128.Idx) :
    (iblk1 V c 6 t : Vec Ideal S128 .f32) x = (V c main_arg8 : S128.Idx → EReal) x := by
  obtain ⟨-, -, -, -, -, -, e0, -⟩ := idx_facts t
  unfold iblk1
  rw [View.read_apply]
  show V c main_arg8 _ = V c main_arg8 _
  refine congrArg (V c main_arg8) ?_
  funext a
  apply Fin.ext
  match a with
  | ⟨0, _⟩ => show win1_6.index t (0 : Fin 1) * 128 + 1 * (x 0).val = (x 0).val; rw [e0]; omega

/-- The output layer's matrix is read whole at every point. -/
theorem in7_apply (c : Dev nD) (t : Fin cfg1.N) (x : S128x128.Idx) :
    (iblk1 V c 7 t : Vec Ideal S128x128 .f32) x = (V c main_arg10 : S128x128.Idx → EReal) x := by
  obtain ⟨-, -, -, -, -, -, -, ⟨e0, e1⟩, -⟩ := idx_facts t
  unfold iblk1
  rw [View.read_apply]
  show V c main_arg10 _ = V c main_arg10 _
  refine congrArg (V c main_arg10) ?_
  funext a
  apply Fin.ext
  match a with
  | ⟨0, _⟩ => show win1_7.index t (0 : Fin 2) * 128 + 1 * (x 0).val = (x 0).val; rw [e0]; omega
  | ⟨1, _⟩ => show win1_7.index t (1 : Fin 2) * 128 + 1 * (x 1).val = (x 1).val; rw [e1]; omega

/-- The output layer's bias is read whole at every point. -/
theorem in8_apply (c : Dev nD) (t : Fin cfg1.N) (x : S128.Idx) :
    (iblk1 V c 8 t : Vec Ideal S128 .f32) x = (V c main_arg11 : S128.Idx → EReal) x := by
  obtain ⟨-, -, -, -, -, -, -, -, e0, -⟩ := idx_facts t
  unfold iblk1
  rw [View.read_apply]
  show V c main_arg11 _ = V c main_arg11 _
  refine congrArg (V c main_arg11) ?_
  funext a
  apply Fin.ext
  match a with
  | ⟨0, _⟩ => show win1_8.index t (0 : Fin 1) * 128 + 1 * (x 0).val = (x 0).val; rw [e0]; omega

/-- What point t writes back is block t of `G1` of the arrays as the region found them. -/
theorem flushed_eq (c : Dev nD) (t : Fin cfg1.N) :
    (dat1 V c).flushed 9 t = ((cfg1.win 9).blk t).view.read (Elt Ideal)
      (G1 (V c main_arg2) (V c main_v5) (V c main_v1) (V c main_arg5) (V c main_arg6) (V c main_arg7) (V c main_arg8)
        (V c main_arg10) (V c main_arg11)) := by
  show (cfg1.win 9).cut (grid1.coords t) ((dat1 V c).after 9 t) = _
  rw [after1_9]
  unfold out1_9
  rw [View.canon_unit_zero hz2]
  simp only [View.ld_unit_zero (S := S200x48x25) hz3, View.ld_unit_zero (S := S25x128) hz2, View.ld_unit_zero (S := S128) hz1,
    View.ld_unit_zero (S := S128x128) hz2, View.ld_unit_zero (S := S200x48) hz2, View.ld_unit_zero (S := S200x48x128) hz3]
  obtain ⟨-, -, -, -, -, -, -, -, -, ⟨e0, e1⟩⟩ := idx_facts t
  funext j
  show k1_pay1 (k1_pay2 (iblk1 V c 0 t) (iblk1 V c 3 t) (iblk1 V c 4 t) (iblk1 V c 5 t) (iblk1 V c 6 t) (iblk1 V c 1 t))
      (iblk1 V c 2 t) (iblk1 V c 7 t) (iblk1 V c 8 t) j
    = G1 (V c main_arg2) (V c main_v5) (V c main_v1) (V c main_arg5) (V c main_arg6) (V c main_arg7) (V c main_arg8)
        (V c main_arg10) (V c main_arg11) (((cfg1.win 9).blk t).view.emb j)
  have hj0 : (j 0).val < 200 := (j 0).isLt
  have hj1 : (j 1).val < 128 := (j 1).isLt
  have ht : t.val < 50 := lt_of_lt_of_eq t.isLt N_1
  have hn : t.val * 200 + (j 0).val < 10000 := by omega
  have hemb : ((cfg1.win 9).blk t).view.emb j = ix2 (⟨t.val * 200 + (j 0).val, hn⟩ : Fin 10000) (j 1) := by
    funext a
    apply Fin.ext
    match a with
    | ⟨0, _⟩ => show win1_9.index t (0 : Fin 2) * 200 + 1 * (j 0).val = t.val * 200 + (j 0).val; rw [e0]; omega
    | ⟨1, _⟩ => show win1_9.index t (1 : Fin 2) * 128 + 1 * (j 1).val = (j 1).val; rw [e1]; omega
  rw [hemb]
  refine (congrArg (k1_pay1 (k1_pay2 (iblk1 V c 0 t) (iblk1 V c 3 t) (iblk1 V c 4 t) (iblk1 V c 5 t) (iblk1 V c 6 t) (iblk1 V c 1 t))
      (iblk1 V c 2 t) (iblk1 V c 7 t) (iblk1 V c 8 t)) (eq_ix2 j)).trans ?_
  exact blk_eq _ _ _ _ _ _ _ _ _ _ _ _ _ _ _ _ _ _ (j 0) ⟨t.val * 200 + (j 0).val, hn⟩
    (fun k g => in0_apply V c t _ _ rfl rfl rfl) (fun k => in1_apply V c t _ _ rfl rfl)
    (fun k i => in2_apply V c t _ _ rfl rfl rfl) (fun g i => in3_apply V c t _) (fun i => in4_apply V c t _)
    (fun i i' => in5_apply V c t _) (fun i => in6_apply V c t _) (fun i i' => in7_apply V c t _) (fun i => in8_apply V c t _) (j 1)

/-- An index of the result is in point t's block iff each coordinate is in the block's range on its axis. -/
theorem mem_blk (t : Fin cfg1.N) (i : S10000x128.Idx) :
    i ∈ ((cfg1.win 9).blk t).view.set ↔ ∀ a : Fin 2, win1_9.index t a * S200x128.size a ≤ (i a).val ∧ (i a).val < win1_9.index t a * S200x128.size a + S200x128.size a := by
  show i ∈ ((View.whole main_v6).slice (win1_9.rect t)).set ↔ _
  rw [View.set_slice_whole, Rect.mem_set_unit]
  exact Iff.rfl

/-- Atom n of the result lies in the block of point n / 200. -/
theorem cover (i : S10000x128.Idx) : ∃ t : Fin cfg1.N, (cfg1.win 9).flush t = true ∧ i ∈ ((cfg1.win 9).blk t).view.set := by
  have hi0 : (i 0).val < 10000 := (i 0).isLt
  have hi1 : (i 1).val < 128 := (i 1).isLt
  let t : Fin cfg1.N := ⟨(i 0).val / 200, lt_of_lt_of_eq (by omega : (i 0).val / 200 < 50) N_1.symm⟩
  obtain ⟨-, -, -, -, -, -, -, -, -, ⟨e0, e1⟩⟩ := idx_facts t
  refine ⟨t, flush1_9 t, ?_⟩
  rw [mem_blk]
  intro a
  match a with
  | ⟨0, _⟩ =>
    show win1_9.index t (0 : Fin 2) * 200 ≤ (i 0).val ∧ (i 0).val < win1_9.index t (0 : Fin 2) * 200 + 200
    rw [e0]; show (i 0).val / 200 * 200 ≤ (i 0).val ∧ (i 0).val < (i 0).val / 200 * 200 + 200; omega
  | ⟨1, _⟩ =>
    show win1_9.index t (1 : Fin 2) * 128 ≤ (i 1).val ∧ (i 1).val < win1_9.index t (1 : Fin 2) * 128 + 128
    rw [e1]; omega

/-- The region's result array ends holding `G1` of the arrays it found. -/
theorem final (c : Dev nD) : (dat1 V c).arrAt 9 cfg1.N
    = G1 (V c main_arg2) (V c main_v5) (V c main_v1) (V c main_arg5) (V c main_arg6) (V c main_arg7) (V c main_arg8)
        (V c main_arg10) (V c main_arg11) :=
  (dat1 V c).arrAt_eq_of_cover 9 _ (fun t _ => flushed_eq V c t) cover

end Cert.KernelIdeal.Region1

end
-- ==== Proof.KRun.lean ====
/-
  The kernel program's run with its result named.

  The program is two kernel regions with two stretches of host operations between them. The buffer contents at each
  boundary are a fold from the launch memory; at the last boundary the result array holds what the second region's
  write-backs leave, and every argument array holds what it was launched with. This module states the run with the
  result array in its post-condition, beside the arguments.
-/
import proofs.«173641_j13245679141058_2_alg».proof.Proof.Gen.KernelIdeal.Frame
import Idealize.ShloMosaic.PureOps.Ideal

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every weakly fair execution of the program on the TensorCores terminates, nothing faulting, and ends with the
    result array at what region 1's write-backs leave and the arguments unchanged. -/
theorem run_named : θ_run (defs (F := Ideal)) (onTc (τ := τ) (main (F := Ideal))) ⟨m, fun _ => 0, ρ⟩ (fun r => ∀ c : Dev nD,
      r.2.mem ((c.tc : Thread nD τ).loc main_v6) = Gen.W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

/-- What region 1's write-backs leave in the result array. -/
theorem W4_out (c : Dev nD) :
    Gen.W4 m ρ c (Proc.devRef .tc main_v6) = (Gen.dat1 (Gen.V3 m ρ) c).arrAt 9 cfg1.N :=
  W4_arr m ρ c 9

end Cert.KernelIdeal.KRun

end
-- ==== Proof.LibTypedRef.lean ====
/-
  Typed references and lines of host operations: three general facts.

  An operation of a module-local function is spelt over typed references: its function is stated at the value's type
  `T` and moved to the buffer's own type along the reference's proof that the two types agree (`toBuf`), and an
  operand's contents are moved the other way (`ofBuf`). Both moves are the identity, since the proof they move along
  can only be reflexivity; the lemmas here say so for any typed reference, by taking the reference apart:

  * `ofBuf_toBuf`: there and back is the identity (what stands between two operations of a line that is read back);
  * `toBuf_eq`: a moved value equals contents of the buffer that are the same value (the outermost move);
  * `after_append`: the contents after two lines in a row are those after their concatenation, so a long line can be
    read back stretch by stretch.
-/
import Idealize.ShloMosaic.Lib.StableHlo.Run

noncomputable section

namespace Idealize.ShloMosaic.TypedRef

open Idealize.ShloMosaic Idealize.ShloMosaic.StableHlo

variable {nD : Nat} {τ : Topo} {sig : RefSig} {Val : EltTy → Type}

/-- A value moved to the buffer's type and back is the value. -/
theorem ofBuf_toBuf {T : BufTy} (x : TRef sig T) (v : T.Contents Val) : x.ofBuf (x.toBuf v) = v := by
  obtain ⟨r, rfl, h2, h3⟩ := x
  rfl

/-- A value moved to the buffer's type is any contents of the buffer that are the same value. -/
theorem toBuf_eq {T : BufTy} (x : TRef sig T) (v : T.Contents Val) (w : x.ref.ty.Contents Val) (h : HEq v w) :
    x.toBuf v = w := by
  obtain ⟨r, rfl, h2, h3⟩ := x
  exact eq_of_heq h

/-- The contents after a line and then another are the contents after their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

end Idealize.ShloMosaic.TypedRef

end
-- ==== Proof.KHost.lean ====
/-
  The host lines between the kernel program's two regions, read back to the launch memory.

  Region 1 reads nine arrays. Seven are arguments of the program, which nothing before region 1 writes, so each holds
  what it was launched with. One is the product of the cutoff indicator of the distances (1 where the distance is at
  most 5, else 0) with the pair mask, computed by five host operations from two arguments. One is the row lookup:
  the rows of region 0's result selected by the neighbour indices, computed by the twenty-three host operations of a
  module-local function; it is named `take` here and stated once, as a function of the looked-up array and the index
  array, and never opened. Region 0 itself reads two arguments as launched.
-/
import proofs.«173641_j13245679141058_2_alg».proof.Proof.Gen.KernelIdeal.Frame
import proofs.«173641_j13245679141058_2_alg».proof.Proof.LibTypedRef
import Idealize.ShloMosaic.PureOps.Ideal

set_option maxRecDepth 16384

noncomputable section

namespace Cert.KernelIdeal.KRun

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

/-- The row lookup of the program's host lines: a negative index is shifted by the number of rows, a row whose shifted
    index lies in range is fetched, and any other row is filled with the fill word. -/
def take (y : FVec Ideal S10000x128 .f32) (idx : IVec S10000x48 32) : FVec Ideal S10000x48x128 .f32 :=
  let i5 : IVec S10000x48x1 32 := broadcastInDim S10000x48x1 ![0, 1] bcast_S10000x48_S10000x48x1_0_1 (select (cmpi .slt idx (broadcastInDim S10000x48 ![] bcast_S_S10000x48 (constantI S_ 32 0#32))) (addi idx (broadcastInDim S10000x48 ![] bcast_S_S10000x48 (constantI S_ 32 10000#32))) idx)
  select (broadcastInDim S10000x48x128 ![0, 1] bcast_S10000x48_S10000x48x128_0_1 (Host.reduce IntOp.andi (andi (cmpi .sge i5 (broadcastInDim S10000x48x1 ![] bcast_S_S10000x48x1 (constantI S_ 32 0#32))) (cmpi .sle i5 (broadcastInDim S10000x48x1 ![0, 1, 2] bcast_S1x1x1_S10000x48x1_0_1_2 (broadcastInDim S1x1x1 ![2] bcast_S1_S1x1x1_2 (constantI S1 32 9999#32))))) (constantI S_ 1 1#1) reducesTo_S10000x48x1_S10000x48_d2 h_S_)) (Host.gather gather_S10000x128_S10000x48x1_S10000x48x128_2_0_n_n_0_2_1128 y i5) (broadcastInDim S10000x48x128 ![] bcast_S_S10000x48x128 (constant (F := Ideal) S_ .f32 0x7FC00000#32))

/-- Closes "no operation of the two host stretches writes this buffer": each operation writes one buffer, named by a
    literal reference, and distinct references name distinct buffers. -/
local macro "unwritten" : tactic => `(tactic| (
  refine List.forall_iff_forall_mem.mp ?_
  simp only [hostOps1, hostOps1_1, List.Forall, StableHlo.nullary_writes, StableHlo.unary_writes, StableHlo.binary_writes,
    StableHlo.ternary_writes, Finset.mem_singleton]
  repeat' apply And.intro
  all_goals exact StableHlo.devRef_ne_of_ne (by decide)))

/-- A buffer the first host stretch does not write holds after it what region 0 left. -/
theorem W2_of_unwritten (c : Dev nD) (b : Ref sig .tc)
    (h : ∀ op ∈ (hostOps1 : List (HloOp τ sig (Elt Ideal))), (Proc.devRef .tc b : DevRef τ sig) ∉ op.writes) :
    W2 m ρ c (Proc.devRef .tc b) = W1 m ρ c (Proc.devRef .tc b) :=
  StableHlo.after_of_forall_not_mem (b := Proc.devRef .tc b) _ _ h

/-- A buffer the second host stretch does not write holds at region 1's entry what the first stretch left. -/
theorem W3_of_unwritten (c : Dev nD) (b : Ref sig .tc)
    (h : ∀ op ∈ (hostOps1_1 : List (HloOp τ sig (Elt Ideal))), (Proc.devRef .tc b : DevRef τ sig) ∉ op.writes) :
    W3 m ρ c (Proc.devRef .tc b) = W2 m ρ c (Proc.devRef .tc b) :=
  StableHlo.after_of_forall_not_mem (b := Proc.devRef .tc b) _ _ h

/-! ## Region 0's entry: the launch memory -/

theorem V0_arg0 (c : Dev nD) : Gen.V0 m ρ c main_arg0 = m ((c : Thread nD τ).loc main_arg0) := rfl
theorem V0_arg9 (c : Dev nD) : Gen.V0 m ρ c main_arg9 = m ((c : Thread nD τ).loc main_arg9) := rfl

/-! ## Region 1's entry: the arguments it reads are as launched

No host operation writes an argument, and region 0 writes only its result array. -/

theorem V3_arg2 (c : Dev nD) : Gen.V3 m ρ c main_arg2 = m ((c : Thread nD τ).loc main_arg2) :=
  calc W3 m ρ c (Proc.devRef .tc main_arg2)
    _ = W2 m ρ c (Proc.devRef .tc main_arg2) := W3_of_unwritten m ρ c main_arg2 (by unwritten)
    _ = W1 m ρ c (Proc.devRef .tc main_arg2) := W2_of_unwritten m ρ c main_arg2 (by unwritten)
    _ = W0 m ρ c (Proc.devRef .tc main_arg2) := W1_of_ne m ρ c main_arg2 (by decide)
    _ = m ((c : Thread nD τ).loc main_arg2) := rfl

theorem V3_arg5 (c : Dev nD) : Gen.V3 m ρ c main_arg5 = m ((c : Thread nD τ).loc main_arg5) :=
  calc W3 m ρ c (Proc.devRef .tc main_arg5)
    _ = W2 m ρ c (Proc.devRef .tc main_arg5) := W3_of_unwritten m ρ c main_arg5 (by unwritten)
    _ = W1 m ρ c (Proc.devRef .tc main_arg5) := W2_of_unwritten m ρ c main_arg5 (by unwritten)
    _ = W0 m ρ c (Proc.devRef .tc main_arg5) := W1_of_ne m ρ c main_arg5 (by decide)
    _ = m ((c : Thread nD τ).loc main_arg5) := rfl

theorem V3_arg6 (c : Dev nD) : Gen.V3 m ρ c main_arg6 = m ((c : Thread nD τ).loc main_arg6) :=
  calc W3 m ρ c (Proc.devRef .tc main_arg6)
    _ = W2 m ρ c (Proc.devRef .tc main_arg6) := W3_of_unwritten m ρ c main_arg6 (by unwritten)
    _ = W1 m ρ c (Proc.devRef .tc main_arg6) := W2_of_unwritten m ρ c main_arg6 (by unwritten)
    _ = W0 m ρ c (Proc.devRef .tc main_arg6) := W1_of_ne m ρ c main_arg6 (by decide)
    _ = m ((c : Thread nD τ).loc main_arg6) := rfl

theorem V3_arg7 (c : Dev nD) : Gen.V3 m ρ c main_arg7 = m ((c : Thread nD τ).loc main_arg7) :=
  calc W3 m ρ c (Proc.devRef .tc main_arg7)
    _ = W2 m ρ c (Proc.devRef .tc main_arg7) := W3_of_unwritten m ρ c main_arg7 (by unwritten)
    _ = W1 m ρ c (Proc.devRef .tc main_arg7) := W2_of_unwritten m ρ c main_arg7 (by unwritten)
    _ = W0 m ρ c (Proc.devRef .tc main_arg7) := W1_of_ne m ρ c main_arg7 (by decide)
    _ = m ((c : Thread nD τ).loc main_arg7) := rfl

theorem V3_arg8 (c : Dev nD) : Gen.V3 m ρ c main_arg8 = m ((c : Thread nD τ).loc main_arg8) :=
  calc W3 m ρ c (Proc.devRef .tc main_arg8)
    _ = W2 m ρ c (Proc.devRef .tc main_arg8) := W3_of_unwritten m ρ c main_arg8 (by unwritten)
    _ = W1 m ρ c (Proc.devRef .tc main_arg8) := W2_of_unwritten m ρ c main_arg8 (by unwritten)
    _ = W0 m ρ c (Proc.devRef .tc main_arg8) := W1_of_ne m ρ c main_arg8 (by decide)
    _ = m ((c : Thread nD τ).loc main_arg8) := rfl

theorem V3_arg10 (c : Dev nD) : Gen.V3 m ρ c main_arg10 = m ((c : Thread nD τ).loc main_arg10) :=
  calc W3 m ρ c (Proc.devRef .tc main_arg10)
    _ = W2 m ρ c (Proc.devRef .tc main_arg10) := W3_of_unwritten m ρ c main_arg10 (by unwritten)
    _ = W1 m ρ c (Proc.devRef .tc main_arg10) := W2_of_unwritten m ρ c main_arg10 (by unwritten)
    _ = W0 m ρ c (Proc.devRef .tc main_arg10) := W1_of_ne m ρ c main_arg10 (by decide)
    _ = m ((c : Thread nD τ).loc main_arg10) := rfl

theorem V3_arg11 (c : Dev nD) : Gen.V3 m ρ c main_arg11 = m ((c : Thread nD τ).loc main_arg11) :=
  calc W3 m ρ c (Proc.devRef .tc main_arg11)
    _ = W2 m ρ c (Proc.devRef .tc main_arg11) := W3_of_unwritten m ρ c main_arg11 (by unwritten)
    _ = W1 m ρ c (Proc.devRef .tc main_arg11) := W2_of_unwritten m ρ c main_arg11 (by unwritten)
    _ = W0 m ρ c (Proc.devRef .tc main_arg11) := W1_of_ne m ρ c main_arg11 (by decide)
    _ = m ((c : Thread nD τ).loc main_arg11) := rfl

/-! ## Region 1's entry: the masked cutoff indicator -/

/-- The second stretch leaves in its last buffer the indicator of "distance at most 5", as a number, times the pair
    mask, both read at the launch memory. -/
theorem V3_v5 (c : Dev nD) : Gen.V3 m ρ c main_v5 = mulf (F := Ideal) (uitofp .f32 (cmpf (F := Ideal) .ole (m ((c : Thread nD τ).loc main_arg1)) (broadcastInDim S10000x48 ![] bcast_S_S10000x48 (constant (F := Ideal) S_ .f32 0x40A00000#32)))) (m ((c : Thread nD τ).loc main_arg3)) := by
  have h1 : W2 m ρ c (Proc.devRef .tc main_arg1) = m ((c : Thread nD τ).loc main_arg1) :=
    (W2_of_unwritten m ρ c main_arg1 (by unwritten)).trans (W1_of_ne m ρ c main_arg1 (by decide))
  have h3 : W2 m ρ c (Proc.devRef .tc main_arg3) = m ((c : Thread nD τ).loc main_arg3) :=
    (W2_of_unwritten m ρ c main_arg3 (by unwritten)).trans (W1_of_ne m ρ c main_arg3 (by decide))
  show StableHlo.after hostOps1_1 (W2 m ρ c) (Proc.devRef .tc main_v5) = _
  generalize W2 m ρ c = X at h1 h3 ⊢
  after_results
  rw [h1, h3]

/-! ## Region 1's entry: the row lookup -/

attribute [local irreducible] Host.reduce Host.gather in
/-- The first stretch leaves in its last buffer the row lookup of region 0's result array by the neighbour indices;
    the second stretch does not write that buffer. Region 0's result array is what its write-backs leave, and the
    index array is as launched. -/
theorem V3_v1 (c : Dev nD) : Gen.V3 m ρ c main_v1 = take ((Gen.dat0 (Gen.V0 m ρ) c).arrAt 2 cfg0.N) (m ((c : Thread nD τ).loc main_arg4)) := by
  have h0 : W1 m ρ c (Proc.devRef .tc main_v0) = (dat0 (V0 m ρ) c).arrAt 2 cfg0.N := W1_arr m ρ c 2
  have h4 : W1 m ρ c (Proc.devRef .tc main_arg4) = m ((c : Thread nD τ).loc main_arg4) := W1_of_ne m ρ c main_arg4 (by decide)
  refine (W3_of_unwritten m ρ c main_v1 (by unwritten)).trans ?_
  show StableHlo.after hostOps1 (W1 m ρ c) (Proc.devRef .tc main_v1) = _
  generalize (dat0 (V0 m ρ) c).arrAt 2 cfg0.N = y at h0 ⊢
  generalize W1 m ρ c = X at h0 h4 ⊢
  after_results_simp
  simp only [Idealize.ShloMosaic.TypedRef.ofBuf_toBuf]
  rw [h0, h4]
  rfl

end Cert.KernelIdeal.KRun

end
-- ==== Proof.KValue.lean ====
/-
  The tiled program's result, as the specification's array.

  The run ends with the result array at what the second region's write-backs leave. That region found, in the arrays
  it reads: the arguments as launched; the product of the cutoff indicator and the pair mask, which the host wrote;
  and the rows fetched by the row lookup from what the first region left, which is the projected features. Putting
  the two regions' arrays together gives the specification's `out` of the arguments.
-/
import proofs.«173641_j13245679141058_2_alg».proof.Proof.Gen.KernelIdeal.Frame
import proofs.«173641_j13245679141058_2_alg».proof.Proof.Spec
import proofs.«173641_j13245679141058_2_alg».proof.Proof.KRegion0
import proofs.«173641_j13245679141058_2_alg».proof.Proof.KRegion1
import proofs.«173641_j13245679141058_2_alg».proof.Proof.KRun
import proofs.«173641_j13245679141058_2_alg».proof.Proof.KHost

noncomputable section

open scoped BigOperators

namespace Cert.KernelIdeal.KValue

open Idealize.ShloMosaic Idealize.ShloMosaic.ValueIdx Idealize.ShloMosaic.TcCoe Idealize.SL.Sem
open Cert.KernelIdeal Cert.FilterConv Cert.KernelIdeal.Region1

/-- The second region's array of the host-made weights and the fetched rows is the specification's result. -/
theorem G1_eq_out (T : (S10000x128.Idx → EReal) → (S10000x48.Idx → BitVec 32) → S10000x48x128.Idx → EReal)
    (x : S10000x128.Idx → EReal) (dR : FVec Ideal S10000x48 .f32) (dRe : S10000x48x25.Idx → EReal) (pm : FVec Ideal S10000x48 .f32)
    (nbr : S10000x48.Idx → BitVec 32) (W1 : S25x128.Idx → EReal) (b1 : S128.Idx → EReal) (W2 : S128x128.Idx → EReal) (b2 : S128.Idx → EReal)
    (Win : S128x128.Idx → EReal) (Wout : S128x128.Idx → EReal) (bout : S128.Idx → EReal) :
    G1 dRe (mulf (uitofp .f32 (cmpf .ole dR (broadcastInDim S10000x48 ![] Facts₀.bcast_S_S10000x48 (constant (F := Ideal) S_ .f32 0x40A00000#32)))) pm)
      (T (proj x Win) nbr) W1 b1 W2 b2 Wout bout
      = out T x dR dRe pm nbr W1 b1 W2 b2 Win Wout bout := rfl

variable (m : (ℓ : Loc nD τ sig) → Buf (Elt Ideal) ℓ) (ρ : Dev nD → PrngReg)

/-- The result array after the run is the specification's array of the arguments. -/
theorem value (c : Dev nD) : Gen.W4 m ρ c (Proc.devRef .tc main_v6)
    = out KRun.take (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) := by
  refine (KRun.W4_out m ρ c).trans ((Region1.final (Gen.V3 m ρ) c).trans ?_)
  rw [KRun.V3_arg2 m ρ c, KRun.V3_v5 m ρ c, KRun.V3_v1 m ρ c, KRun.V3_arg5 m ρ c, KRun.V3_arg6 m ρ c, KRun.V3_arg7 m ρ c,
    KRun.V3_arg8 m ρ c, KRun.V3_arg10 m ρ c, KRun.V3_arg11 m ρ c, Region0.final (Gen.V0 m ρ) c, KRun.V0_arg0 m ρ c, KRun.V0_arg9 m ρ c]
  exact G1_eq_out KRun.take _ _ _ _ _ _ _ _ _ _ _ _

/-- Every weakly fair execution of the tiled program ends with the result array at the specification's array of the
    arguments and the arguments unchanged. -/
theorem run : θ_run (defs (F := Ideal)) (onTc (τ := τ) (main (F := Ideal))) ⟨m, fun _ => 0, ρ⟩ (fun r => ∀ c : Dev nD,
      r.2.mem ((c.tc : Thread nD τ).loc main_v6)
        = out KRun.take (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun _ h c => ⟨(h c).1.trans (value m ρ c), (h c).2⟩) (KRun.run_named m ρ)

end Cert.KernelIdeal.KValue

end
-- ==== Proof.RefOps.lean ====
/-
  The reference program as a straight line of host operations, and its run.

  The reference has no kernel: its entry function is a sequence of tensor operations, three of them calls of
  module-local functions (the softplus twice, at two shapes, and the row lookup, which itself calls a select
  helper). A call means the callee's operations on the call's own buffers, so the whole program is one line of
  eighty-three operations: the callee's lines are listed at their call sites over the call's buffer record.
  The run of such a line ends with every buffer at the fold of the operations' results over the launch contents.
-/
import proofs.«173641_j13245679141058_2_alg».proof.Proof.Gen.ReferenceIdeal
import Idealize.ShloMosaic.Lib.StableHlo.Run
import Idealize.ShloMosaic.Lib.Pipeline.Regions

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

/-- The eighty-three operations, in program order: four of the entry function, the fourteen of the first softplus,
    fourteen of the entry function, the twenty-three of the row lookup (the select helper's one inline), seven
    of the entry function, the fourteen of the second softplus, and the last three. -/
abbrev ops : List (HloOp τ sig (Elt F)) :=
  [ StableHlo.binary main_arg2 main_arg5 main_v0 ((fun l r => Host.dotGeneral dot_S10000x48x25_S25x128_S10000x48x128_2_0_01_1_n_n none l r) : (⟨S10000x48x25, .f32⟩ : BufTy).Contents (Elt F) → (⟨S25x128, .f32⟩ : BufTy).Contents (Elt F) → (⟨S10000x48x128, .f32⟩ : BufTy).Contents (Elt F)),
    StableHlo.unary main_arg6 main_v1 (broadcastInDim S1x1x128 ![2] bcast_S128_S1x1x128_2 : (⟨S128, .f32⟩ : BufTy).Contents (Elt F) → (⟨S1x1x128, .f32⟩ : BufTy).Contents (Elt F)),
    StableHlo.unary main_v1 main_v2 (broadcastInDim S10000x48x128 ![0, 1, 2] bcast_S1x1x128_S10000x48x128_0_1_2 : (⟨S1x1x128, .f32⟩ : BufTy).Contents (Elt F) → (⟨S10000x48x128, .f32⟩ : BufTy).Contents (Elt F)),
    StableHlo.binary main_v0 main_v2 main_v3 (addf : (⟨S10000x48x128, .f32⟩ : BufTy).Contents (Elt F) → (⟨S10000x48x128, .f32⟩ : BufTy).Contents (Elt F) → (⟨S10000x48x128, .f32⟩ : BufTy).Contents (Elt F)),
    StableHlo.TRef.nullary main_call0.cst (constant S_ .f32 0x00000000#32),
    StableHlo.TRef.unary main_call0.cst main_call0.v0 (broadcastInDim S10000x48x128 ![] bcast_S_S10000x48x128),
    StableHlo.TRef.binary (.of main_v3 : StableHlo.TRef sig ⟨S10000x48x128, .f32⟩) main_call0.v0 main_call0.v1 maximumf,
    StableHlo.TRef.unary main_call0.cst main_call0.v2 (broadcastInDim S10000x48x128 ![] bcast_S_S10000x48x128),
    StableHlo.TRef.binary (.of main_v3 : StableHlo.TRef sig ⟨S10000x48x128, .f32⟩) main_call0.v2 main_call0.v3 subf,
    StableHlo.TRef.binary main_call0.v3 main_call0.v3 main_call0.v4 (cmpf .une),
    StableHlo.TRef.unary main_call0.cst main_call0.v5 (broadcastInDim S10000x48x128 ![] bcast_S_S10000x48x128),
    StableHlo.TRef.binary (.of main_v3 : StableHlo.TRef sig ⟨S10000x48x128, .f32⟩) main_call0.v5 main_call0.v6 addf,
    StableHlo.TRef.unary main_call0.v3 main_call0.v7 Host.absf,
    StableHlo.TRef.unary main_call0.v7 main_call0.v8 Host.negf,
    StableHlo.TRef.unary main_call0.v8 main_call0.v9 Host.exp,
    StableHlo.TRef.unary main_call0.v9 main_call0.v10 Host.log1p,
    StableHlo.TRef.binary main_call0.v1 main_call0.v10 main_call0.v11 addf,
    StableHlo.TRef.ternary main_call0.v4 main_call0.v6 main_call0.v11 main_call0.v12 select,
    StableHlo.nullary main_cst (constant S_ .f32 0x3F317218#32),
    StableHlo.unary main_cst main_v5 (broadcastInDim S10000x48x128 ![] bcast_S_S10000x48x128 : (⟨S_, .f32⟩ : BufTy).Contents (Elt F) → (⟨S10000x48x128, .f32⟩ : BufTy).Contents (Elt F)),
    StableHlo.binary main_v4 main_v5 main_v6 (subf : (⟨S10000x48x128, .f32⟩ : BufTy).Contents (Elt F) → (⟨S10000x48x128, .f32⟩ : BufTy).Contents (Elt F) → (⟨S10000x48x128, .f32⟩ : BufTy).Contents (Elt F)),
    StableHlo.binary main_v6 main_arg7 main_v7 ((fun l r => Host.dotGeneral dot_S10000x48x128_S128x128_S10000x48x128_2_0_01_1_n_n none l r) : (⟨S10000x48x128, .f32⟩ : BufTy).Contents (Elt F) → (⟨S128x128, .f32⟩ : BufTy).Contents (Elt F) → (⟨S10000x48x128, .f32⟩ : BufTy).Contents (Elt F)),
    StableHlo.unary main_arg8 main_v8 (broadcastInDim S1x1x128 ![2] bcast_S128_S1x1x128_2 : (⟨S128, .f32⟩ : BufTy).Contents (Elt F) → (⟨S1x1x128, .f32⟩ : BufTy).Contents (Elt F)),
    StableHlo.unary main_v8 main_v9 (broadcastInDim S10000x48x128 ![0, 1, 2] bcast_S1x1x128_S10000x48x128_0_1_2 : (⟨S1x1x128, .f32⟩ : BufTy).Contents (Elt F) → (⟨S10000x48x128, .f32⟩ : BufTy).Contents (Elt F)),
    StableHlo.binary main_v7 main_v9 main_v10 (addf : (⟨S10000x48x128, .f32⟩ : BufTy).Contents (Elt F) → (⟨S10000x48x128, .f32⟩ : BufTy).Contents (Elt F) → (⟨S10000x48x128, .f32⟩ : BufTy).Contents (Elt F)),
    StableHlo.nullary main_cst_0 (constant S_ .f32 0x40A00000#32),
    StableHlo.unary main_cst_0 main_v11 (broadcastInDim S10000x48 ![] bcast_S_S10000x48 : (⟨S_, .f32⟩ : BufTy).Contents (Elt F) → (⟨S10000x48, .f32⟩ : BufTy).Contents (Elt F)),
    StableHlo.binary main_arg1 main_v11 main_v12 (cmpf .ole : (⟨S10000x48, .f32⟩ : BufTy).Contents (Elt F) → (⟨S10000x48, .f32⟩ : BufTy).Contents (Elt F) → (⟨S10000x48, .i1⟩ : BufTy).Contents (Elt F)),
    StableHlo.unary main_v12 main_v13 (uitofp .f32 : (⟨S10000x48, .i1⟩ : BufTy).Contents (Elt F) → (⟨S10000x48, .f32⟩ : BufTy).Contents (Elt F)),
    StableHlo.unary main_v13 main_v14 (broadcastInDim S10000x48x1 ![0, 1] bcast_S10000x48_S10000x48x1_0_1 : (⟨S10000x48, .f32⟩ : BufTy).Contents (Elt F) → (⟨S10000x48x1, .f32⟩ : BufTy).Contents (Elt F)),
    StableHlo.unary main_v14 main_v15 (broadcastInDim S10000x48x128 ![0, 1, 2] bcast_S10000x48x1_S10000x48x128_0_1_2 : (⟨S10000x48x1, .f32⟩ : BufTy).Contents (Elt F) → (⟨S10000x48x128, .f32⟩ : BufTy).Contents (Elt F)),
    StableHlo.binary main_v10 main_v15 main_v16 (mulf : (⟨S10000x48x128, .f32⟩ : BufTy).Contents (Elt F) → (⟨S10000x48x128, .f32⟩ : BufTy).Contents (Elt F) → (⟨S10000x48x128, .f32⟩ : BufTy).Contents (Elt F)),
    StableHlo.binary main_arg0 main_arg9 main_v17 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.TRef.nullary main_call1.c (constantI S_ 32 0#32),
    StableHlo.TRef.unary main_call1.c main_call1.v0 (broadcastInDim S10000x48 ![] bcast_S_S10000x48),
    StableHlo.TRef.binary (.of main_arg4 : StableHlo.TRef sig ⟨S10000x48, .i32⟩) main_call1.v0 main_call1.v1 (cmpi .slt),
    StableHlo.TRef.nullary main_call1.c_0 (constantI S_ 32 10000#32),
    StableHlo.TRef.unary main_call1.c_0 main_call1.v2 (broadcastInDim S10000x48 ![] bcast_S_S10000x48),
    StableHlo.TRef.binary (.of main_arg4 : StableHlo.TRef sig ⟨S10000x48, .i32⟩) main_call1.v2 main_call1.v3 addi,
    StableHlo.TRef.ternary main_call1.v1 main_call1.v3 (.of main_arg4 : StableHlo.TRef sig ⟨S10000x48, .i32⟩) main_call1.call0.v0 select,
    StableHlo.TRef.unary main_call1.call0.v0 main_call1.v5 (broadcastInDim S10000x48x1 ![0, 1] bcast_S10000x48_S10000x48x1_0_1),
    StableHlo.TRef.nullary main_call1.c_1 (constantI S1 32 9999#32),
    StableHlo.TRef.nullary main_call1.c_2 (constantI S_ 32 0#32),
    StableHlo.TRef.unary main_call1.c_2 main_call1.v6 (broadcastInDim S10000x48x1 ![] bcast_S_S10000x48x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S10000x48x1 ![0, 1, 2] bcast_S1x1x1_S10000x48x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S10000x48x1_S10000x48_d2 h_S_),
    StableHlo.TRef.binary (.of main_v17 : StableHlo.TRef sig ⟨S10000x128, .f32⟩) main_call1.v5 main_call1.v13 (fun x i => Host.gather gather_S10000x128_S10000x48x1_S10000x48x128_2_0_n_n_0_2_1128 x i),
    StableHlo.TRef.unary main_call1.v12 main_call1.v14 (broadcastInDim S10000x48x128 ![0, 1] bcast_S10000x48_S10000x48x128_0_1),
    StableHlo.TRef.nullary main_call1.cst (constant S_ .f32 0x7FC00000#32),
    StableHlo.TRef.unary main_call1.cst main_call1.v15 (broadcastInDim S10000x48x128 ![] bcast_S_S10000x48x128),
    StableHlo.TRef.ternary main_call1.v14 main_call1.v13 main_call1.v15 main_call1.v16 select,
    StableHlo.binary main_v18 main_v16 main_v19 (mulf : (⟨S10000x48x128, .f32⟩ : BufTy).Contents (Elt F) → (⟨S10000x48x128, .f32⟩ : BufTy).Contents (Elt F) → (⟨S10000x48x128, .f32⟩ : BufTy).Contents (Elt F)),
    StableHlo.unary main_arg3 main_v20 (broadcastInDim S10000x48x1 ![0, 1] bcast_S10000x48_S10000x48x1_0_1 : (⟨S10000x48, .f32⟩ : BufTy).Contents (Elt F) → (⟨S10000x48x1, .f32⟩ : BufTy).Contents (Elt F)),
    StableHlo.unary main_v20 main_v21 (broadcastInDim S10000x48x128 ![0, 1, 2] bcast_S10000x48x1_S10000x48x128_0_1_2 : (⟨S10000x48x1, .f32⟩ : BufTy).Contents (Elt F) → (⟨S10000x48x128, .f32⟩ : BufTy).Contents (Elt F)),
    StableHlo.binary main_v19 main_v21 main_v22 (mulf : (⟨S10000x48x128, .f32⟩ : BufTy).Contents (Elt F) → (⟨S10000x48x128, .f32⟩ : BufTy).Contents (Elt F) → (⟨S10000x48x128, .f32⟩ : BufTy).Contents (Elt F)),
    StableHlo.nullary main_cst_1 (constant S_ .f32 0x00000000#32),
    StableHlo.binary main_v22 main_cst_1 main_v23 ((fun x v => Host.reduceAdd x v reducesTo_S10000x48x128_S10000x128_d1 h_S_) : (⟨S10000x48x128, .f32⟩ : BufTy).Contents (Elt F) → (⟨S_, .f32⟩ : BufTy).Contents (Elt F) → (⟨S10000x128, .f32⟩ : BufTy).Contents (Elt F)),
    StableHlo.binary main_v23 main_arg10 main_v24 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg11 main_v25 (broadcastInDim S1x128 ![1] bcast_S128_S1x128_1 : (⟨S128, .f32⟩ : BufTy).Contents (Elt F) → (⟨S1x128, .f32⟩ : BufTy).Contents (Elt F)),
    StableHlo.unary main_v25 main_v26 (broadcastInDim S10000x128 ![0, 1] bcast_S1x128_S10000x128_0_1 : (⟨S1x128, .f32⟩ : BufTy).Contents (Elt F) → (⟨S10000x128, .f32⟩ : BufTy).Contents (Elt F)),
    StableHlo.binary main_v24 main_v26 main_v27 (addf : (⟨S10000x128, .f32⟩ : BufTy).Contents (Elt F) → (⟨S10000x128, .f32⟩ : BufTy).Contents (Elt F) → (⟨S10000x128, .f32⟩ : BufTy).Contents (Elt F)),
    StableHlo.TRef.nullary main_call2.cst (constant S_ .f32 0x00000000#32),
    StableHlo.TRef.unary main_call2.cst main_call2.v0 (broadcastInDim S10000x128 ![] bcast_S_S10000x128),
    StableHlo.TRef.binary (.of main_v27 : StableHlo.TRef sig ⟨S10000x128, .f32⟩) main_call2.v0 main_call2.v1 maximumf,
    StableHlo.TRef.unary main_call2.cst main_call2.v2 (broadcastInDim S10000x128 ![] bcast_S_S10000x128),
    StableHlo.TRef.binary (.of main_v27 : StableHlo.TRef sig ⟨S10000x128, .f32⟩) main_call2.v2 main_call2.v3 subf,
    StableHlo.TRef.binary main_call2.v3 main_call2.v3 main_call2.v4 (cmpf .une),
    StableHlo.TRef.unary main_call2.cst main_call2.v5 (broadcastInDim S10000x128 ![] bcast_S_S10000x128),
    StableHlo.TRef.binary (.of main_v27 : StableHlo.TRef sig ⟨S10000x128, .f32⟩) main_call2.v5 main_call2.v6 addf,
    StableHlo.TRef.unary main_call2.v3 main_call2.v7 Host.absf,
    StableHlo.TRef.unary main_call2.v7 main_call2.v8 Host.negf,
    StableHlo.TRef.unary main_call2.v8 main_call2.v9 Host.exp,
    StableHlo.TRef.unary main_call2.v9 main_call2.v10 Host.log1p,
    StableHlo.TRef.binary main_call2.v1 main_call2.v10 main_call2.v11 addf,
    StableHlo.TRef.ternary main_call2.v4 main_call2.v6 main_call2.v11 main_call2.v12 select,
    StableHlo.nullary main_cst_2 (constant S_ .f32 0x3F317218#32),
    StableHlo.unary main_cst_2 main_v29 (broadcastInDim S10000x128 ![] bcast_S_S10000x128 : (⟨S_, .f32⟩ : BufTy).Contents (Elt F) → (⟨S10000x128, .f32⟩ : BufTy).Contents (Elt F)),
    StableHlo.binary main_v28 main_v29 main_v30 (subf : (⟨S10000x128, .f32⟩ : BufTy).Contents (Elt F) → (⟨S10000x128, .f32⟩ : BufTy).Contents (Elt F) → (⟨S10000x128, .f32⟩ : BufTy).Contents (Elt F)) ]

/-- The entry function is that line: the callees' definitions unfold at their calls, and sequencing computes. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., unary_bufs_sub .., unary_bufs_sub .., binary_bufs_sub .., nullary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub ..⟩

/-- From any memory with zero counters every weakly fair execution of the entry function terminates, and every
    buffer ends at the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefDefs.lean ====
/-
  The reference's result as one term of its arguments: the definitions.

  The composition of the operations' functions, stage by stage: the two affine layers of the filter network with the
  softplus between them, the cutoff factor, the projection of the atoms' features and the row lookup on it, the
  three-factor product, the sum over the neighbour axis, the output layer and the last softplus. The row lookup is kept
  as one function `take`, never opened.
-/
import proofs.«173641_j13245679141058_2_alg».proof.Proof.Gen.ReferenceIdeal
import Idealize.ShloMosaic.PureOps.Ideal

noncomputable section

namespace Cert.ReferenceIdeal.RefValue

open Cert.ReferenceIdeal Cert.ReferenceIdeal.Facts₀ Idealize.ShloMosaic

/-- The row lookup: the rows of `y` named by the index words (a negative word counted from the end), the quiet
    not-a-number word where the wrapped index is out of range. -/
def take (y : FVec Ideal S10000x128 .f32) (idx : IVec S10000x48 32) : FVec Ideal S10000x48x128 .f32 :=
  let i5 : IVec S10000x48x1 32 := broadcastInDim S10000x48x1 ![0, 1] bcast_S10000x48_S10000x48x1_0_1 (select (cmpi .slt idx (broadcastInDim S10000x48 ![] bcast_S_S10000x48 (constantI S_ 32 0#32))) (addi idx (broadcastInDim S10000x48 ![] bcast_S_S10000x48 (constantI S_ 32 10000#32))) idx)
  select (broadcastInDim S10000x48x128 ![0, 1] bcast_S10000x48_S10000x48x128_0_1 (Host.reduce IntOp.andi (andi (cmpi .sge i5 (broadcastInDim S10000x48x1 ![] bcast_S_S10000x48x1 (constantI S_ 32 0#32))) (cmpi .sle i5 (broadcastInDim S10000x48x1 ![0, 1, 2] bcast_S1x1x1_S10000x48x1_0_1_2 (broadcastInDim S1x1x1 ![2] bcast_S1_S1x1x1_2 (constantI S1 32 9999#32))))) (constantI S_ 1 1#1) reducesTo_S10000x48x1_S10000x48_d2 h_S_)) (Host.gather gather_S10000x128_S10000x48x1_S10000x48x128_2_0_n_n_0_2_1128 y i5) (broadcastInDim S10000x48x128 ![] bcast_S_S10000x48x128 (constant (F := Ideal) S_ .f32 0x7FC00000#32))

/-- The softplus as the program spells it, at any shape: the select on "the shifted argument differs from itself"
    between the argument plus zero and max(v, 0) + log1p(exp(−|v − 0|)). -/
def spV {s : Shape} (hb : S_.BroadcastsInDim s (![] : Fin 0 → Fin s.rank)) (v : FVec Ideal s .f32) : FVec Ideal s .f32 :=
  select (cmpf .une (subf v (broadcastInDim s ![] hb (constant (F := Ideal) S_ .f32 0x00000000#32))) (subf v (broadcastInDim s ![] hb (constant (F := Ideal) S_ .f32 0x00000000#32))))
    (addf v (broadcastInDim s ![] hb (constant (F := Ideal) S_ .f32 0x00000000#32)))
    (addf (maximumf v (broadcastInDim s ![] hb (constant (F := Ideal) S_ .f32 0x00000000#32)))
      (Host.log1p (Host.exp (Host.negf (Host.absf (subf v (broadcastInDim s ![] hb (constant (F := Ideal) S_ .f32 0x00000000#32))))))))

/-- The hidden layer of the filter network, as an array. -/
def hidV (dRe : FVec Ideal S10000x48x25 .f32) (W1 : FVec Ideal S25x128 .f32) (b1 : FVec Ideal S128 .f32) : FVec Ideal S10000x48x128 .f32 :=
  subf (spV bcast_S_S10000x48x128 (addf (Host.dotGeneral dot_S10000x48x25_S25x128_S10000x48x128_2_0_01_1_n_n none dRe W1)
      (broadcastInDim S10000x48x128 ![0, 1, 2] bcast_S1x1x128_S10000x48x128_0_1_2 (broadcastInDim S1x1x128 ![2] bcast_S128_S1x1x128_2 b1))))
    (broadcastInDim S10000x48x128 ![] bcast_S_S10000x48x128 (constant (F := Ideal) S_ .f32 0x3F317218#32))

/-- The filter values, as an array. -/
def filtV (H : FVec Ideal S10000x48x128 .f32) (W2 : FVec Ideal S128x128 .f32) (b2 : FVec Ideal S128 .f32) : FVec Ideal S10000x48x128 .f32 :=
  addf (Host.dotGeneral dot_S10000x48x128_S128x128_S10000x48x128_2_0_01_1_n_n none H W2)
    (broadcastInDim S10000x48x128 ![0, 1, 2] bcast_S1x1x128_S10000x48x128_0_1_2 (broadcastInDim S1x1x128 ![2] bcast_S128_S1x1x128_2 b2))

/-- A per-pair column spread over the channels. -/
def colV (p : FVec Ideal S10000x48 .f32) : FVec Ideal S10000x48x128 .f32 :=
  broadcastInDim S10000x48x128 ![0, 1, 2] bcast_S10000x48x1_S10000x48x128_0_1_2 (broadcastInDim S10000x48x1 ![0, 1] bcast_S10000x48_S10000x48x1_0_1 p)

/-- The cutoff indicator of every pair. -/
def cutV (dR : FVec Ideal S10000x48 .f32) : FVec Ideal S10000x48 .f32 :=
  uitofp .f32 (cmpf .ole dR (broadcastInDim S10000x48 ![] bcast_S_S10000x48 (constant (F := Ideal) S_ .f32 0x40A00000#32)))

/-- The projected features. -/
def projV (x : FVec Ideal S10000x128 .f32) (Win : FVec Ideal S128x128 .f32) : FVec Ideal S10000x128 .f32 :=
  Host.dotGeneral dot_S10000x128_S128x128_S10000x128_1_0_0_1_n_n none x Win

/-- The sum over the neighbour axis of fetched row × (filter × cutoff) × mask. -/
def aggV (T FC : FVec Ideal S10000x48x128 .f32) (pm : FVec Ideal S10000x48 .f32) : FVec Ideal S10000x128 .f32 :=
  Host.reduceAdd (mulf (mulf T FC) (colV pm)) (constant (F := Ideal) S_ .f32 0x00000000#32) reducesTo_S10000x48x128_S10000x128_d1 h_S_

/-- The output layer and the last softplus. -/
def outV (A : FVec Ideal S10000x128 .f32) (Wout : FVec Ideal S128x128 .f32) (bout : FVec Ideal S128 .f32) : FVec Ideal S10000x128 .f32 :=
  subf (spV bcast_S_S10000x128 (addf (Host.dotGeneral dot_S10000x128_S128x128_S10000x128_1_0_0_1_n_n none A Wout)
      (broadcastInDim S10000x128 ![0, 1] bcast_S1x128_S10000x128_0_1 (broadcastInDim S1x128 ![1] bcast_S128_S1x128_1 bout))))
    (broadcastInDim S10000x128 ![] bcast_S_S10000x128 (constant (F := Ideal) S_ .f32 0x3F317218#32))

/-- The whole reference as one term of its arguments. -/
def term (x : FVec Ideal S10000x128 .f32) (dR : FVec Ideal S10000x48 .f32) (dRe : FVec Ideal S10000x48x25 .f32)
    (pm : FVec Ideal S10000x48 .f32) (nbr : IVec S10000x48 32) (W1 : FVec Ideal S25x128 .f32) (b1 : FVec Ideal S128 .f32)
    (W2 : FVec Ideal S128x128 .f32) (b2 : FVec Ideal S128 .f32) (Win Wout : FVec Ideal S128x128 .f32) (bout : FVec Ideal S128 .f32) :
    FVec Ideal S10000x128 .f32 :=
  outV (aggV (take (projV x Win) nbr) (mulf (filtV (hidV dRe W1 b1) W2 b2) (colV (cutV dR))) pm) Wout bout

end Cert.ReferenceIdeal.RefValue

end
-- ==== Proof.RefTerm.lean ====
/-
  The fold of the reference's eighty-three operations, read at the result buffer: the term of RefDefs at the argument
  buffers' contents. Each operation's result at its own buffer is its function of its operands' contents, and at any
  other buffer what was there; the typed references' moves between a value's type and its buffer's type are the
  identity at these literal buffers.
-/
import proofs.«173641_j13245679141058_2_alg».proof.Proof.RefOps
import proofs.«173641_j13245679141058_2_alg».proof.Proof.RefDefs

noncomputable section

namespace Cert.ReferenceIdeal.RefValue

open Cert.ReferenceIdeal Cert.ReferenceIdeal.Facts₀ Idealize.ShloMosaic Idealize.ShloMosaic.TcCoe Idealize.SL.Sem Idealize.ShloMosaic.StableHlo

attribute [local irreducible] Host.reduce Host.gather Host.reduceAdd in
set_option maxRecDepth 16384 in
set_option maxHeartbeats 1000000 in
/-- The fold at the result buffer is that term of the argument buffers' contents. -/
theorem out_eq (V : Valuation τ sig (Elt Ideal)) :
    after (ops (F := Ideal)) V (main_v30 : DevRef τ sig)
      = term (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig))
          (V (main_arg8 : DevRef τ sig)) (V (main_arg9 : DevRef τ sig)) (V (main_arg10 : DevRef τ sig)) (V (main_arg11 : DevRef τ sig)) := by
  after_results_simp
  rfl

end Cert.ReferenceIdeal.RefValue

end
-- ==== Proof.RefArgs.lean ====
/-
  The fold of the reference's operations, read at each argument buffer: no operation writes an argument, so each
  holds what it held at the launch.
-/
import proofs.«173641_j13245679141058_2_alg».proof.Proof.RefOps

noncomputable section

namespace Cert.ReferenceIdeal.RefValue

open Cert.ReferenceIdeal Cert.ReferenceIdeal.Facts₀ Idealize.ShloMosaic Idealize.ShloMosaic.TcCoe Idealize.SL.Sem Idealize.ShloMosaic.StableHlo

variable {F : FTy → Type} [FloatOps F]

theorem arg0_eq (V : Valuation τ sig (Elt F)) :
    after (ops (F := F)) V (main_arg0 : DevRef τ sig) = V (main_arg0 : DevRef τ sig) := by
  after_results_simp

theorem arg1_eq (V : Valuation τ sig (Elt F)) :
    after (ops (F := F)) V (main_arg1 : DevRef τ sig) = V (main_arg1 : DevRef τ sig) := by
  after_results_simp

theorem arg2_eq (V : Valuation τ sig (Elt F)) :
    after (ops (F := F)) V (main_arg2 : DevRef τ sig) = V (main_arg2 : DevRef τ sig) := by
  after_results_simp

theorem arg3_eq (V : Valuation τ sig (Elt F)) :
    after (ops (F := F)) V (main_arg3 : DevRef τ sig) = V (main_arg3 : DevRef τ sig) := by
  after_results_simp

theorem arg4_eq (V : Valuation τ sig (Elt F)) :
    after (ops (F := F)) V (main_arg4 : DevRef τ sig) = V (main_arg4 : DevRef τ sig) := by
  after_results_simp

theorem arg5_eq (V : Valuation τ sig (Elt F)) :
    after (ops (F := F)) V (main_arg5 : DevRef τ sig) = V (main_arg5 : DevRef τ sig) := by
  after_results_simp

theorem arg6_eq (V : Valuation τ sig (Elt F)) :
    after (ops (F := F)) V (main_arg6 : DevRef τ sig) = V (main_arg6 : DevRef τ sig) := by
  after_results_simp

theorem arg7_eq (V : Valuation τ sig (Elt F)) :
    after (ops (F := F)) V (main_arg7 : DevRef τ sig) = V (main_arg7 : DevRef τ sig) := by
  after_results_simp

theorem arg8_eq (V : Valuation τ sig (Elt F)) :
    after (ops (F := F)) V (main_arg8 : DevRef τ sig) = V (main_arg8 : DevRef τ sig) := by
  after_results_simp

theorem arg9_eq (V : Valuation τ sig (Elt F)) :
    after (ops (F := F)) V (main_arg9 : DevRef τ sig) = V (main_arg9 : DevRef τ sig) := by
  after_results_simp

theorem arg10_eq (V : Valuation τ sig (Elt F)) :
    after (ops (F := F)) V (main_arg10 : DevRef τ sig) = V (main_arg10 : DevRef τ sig) := by
  after_results_simp

theorem arg11_eq (V : Valuation τ sig (Elt F)) :
    after (ops (F := F)) V (main_arg11 : DevRef τ sig) = V (main_arg11 : DevRef τ sig) := by
  after_results_simp

end Cert.ReferenceIdeal.RefValue

end
-- ==== Proof.LibRank3Host.lean ====
/-
  GENERAL LEMMAS for a rank-3 array [a, b, c] on the host, read by coordinates, on the extended reals:
  • the product of an [a, b, K] array with a [K, N] matrix (the array contracted on its last axis, the matrix on its
    first, no batch axis), as the host's `dot_general`, read at `ix3 p q c` as the sum over `k` of
    l (p, q, k) · r (k, c);
  • a vector [N] given two leading unit axes and repeated over them ([N] → [1, 1, N] → [a, b, N], each step a
    `broadcast_in_dim`), read at `ix3 p q c` as the vector's entry `c`;
  • an [a, b] array given a trailing unit axis and repeated along it ([a, b] → [a, b, 1] → [a, b, c], each step a
    `broadcast_in_dim`), read at `ix3 p q c` as the array's entry (p, q);
  • the host's sum over the MIDDLE axis of an [a, b, c] array, read at `ix2 p c` as the initial value plus the sum
    over `k` of the entries (p, k, c);
  • a scalar constant repeated over any shape, read anywhere as the extended real its word denotes.
-/
import Idealize.ShloMosaic.PureOps.Ideal.Laws
import Idealize.ShloMosaic.Lib.ValueIdx
import Idealize.ShloMosaic.Lib.Pipeline.Value

noncomputable section

open scoped BigOperators

namespace Idealize.ShloMosaic.Rank3Host

open Idealize.ShloMosaic Idealize.ShloMosaic.ValueIdx

variable {A B K N C : Nat} {α : Type}

private theorem val_congr {n : Nat} {sz : Fin n → Nat} (j : (i : Fin n) → Fin (sz i)) (p q : Nat) (hp : p < n) (hq : q < n) (h : p = q) :
    (j ⟨p, hp⟩).val = (j ⟨q, hq⟩).val := by subst h; rfl

/-- The array is read on its first axis at the entry's first coordinate. -/
theorem lhs_ax0 (D : DotDims ⟨3, ![A, B, K]⟩ ⟨2, ![K, N]⟩ ⟨3, ![A, B, N]⟩) (hlb : D.lhsBatch = []) (hln : D.lhsNonContracting = [0, 1])
    (j : (⟨3, ![A, B, N]⟩ : Shape).Idx) (s : D.contr.Idx) : (D.lhsIdx j s (0 : Fin 3)).val = (j (0 : Fin 3)).val := by
  unfold DotDims.lhsIdx
  rw [dif_neg (show ¬(0 : Fin 3) ∈ D.lhsBatch by rw [hlb]; exact List.not_mem_nil),
    dif_pos (show (0 : Fin 3) ∈ D.lhsNonContracting by rw [hln]; simp)]
  simp only [Fin.val_cast]
  exact val_congr j _ _ _ _ (by simp [hlb, hln])

/-- The array is read on its second axis at the entry's second coordinate. -/
theorem lhs_ax1 (D : DotDims ⟨3, ![A, B, K]⟩ ⟨2, ![K, N]⟩ ⟨3, ![A, B, N]⟩) (hlb : D.lhsBatch = []) (hln : D.lhsNonContracting = [0, 1])
    (j : (⟨3, ![A, B, N]⟩ : Shape).Idx) (s : D.contr.Idx) : (D.lhsIdx j s (1 : Fin 3)).val = (j (1 : Fin 3)).val := by
  unfold DotDims.lhsIdx
  rw [dif_neg (show ¬(1 : Fin 3) ∈ D.lhsBatch by rw [hlb]; exact List.not_mem_nil),
    dif_pos (show (1 : Fin 3) ∈ D.lhsNonContracting by rw [hln]; simp)]
  simp only [Fin.val_cast]
  exact val_congr j _ _ _ _ (by simp [hlb, hln])

/-- The matrix is read on its column axis at the entry's third coordinate. -/
theorem rhs_col (D : DotDims ⟨3, ![A, B, K]⟩ ⟨2, ![K, N]⟩ ⟨3, ![A, B, N]⟩) (hlb : D.lhsBatch = []) (hln : D.lhsNonContracting = [0, 1])
    (hrb : D.rhsBatch = []) (hrn : D.rhsNonContracting = [1])
    (j : (⟨3, ![A, B, N]⟩ : Shape).Idx) (s : D.contr.Idx) : (D.rhsIdx j s (1 : Fin 2)).val = (j (2 : Fin 3)).val := by
  unfold DotDims.rhsIdx
  rw [dif_neg (show ¬(1 : Fin 2) ∈ D.rhsBatch by rw [hrb]; exact List.not_mem_nil),
    dif_pos (show (1 : Fin 2) ∈ D.rhsNonContracting by rw [hrn]; exact List.mem_singleton.mpr rfl)]
  simp only [Fin.val_cast]
  exact val_congr j _ _ _ _ (by simp [hlb, hln, hrn])

/-- The contraction of such a product, re-indexed by the one contracted coordinate. -/
theorem sum_eq (D : DotDims ⟨3, ![A, B, K]⟩ ⟨2, ![K, N]⟩ ⟨3, ![A, B, N]⟩)
    (hlc : D.lhsContracting = [2]) (hrc : D.rhsContracting = [0]) (hln : D.lhsNonContracting = [0, 1])
    (hrn : D.rhsNonContracting = [1]) (hlb : D.lhsBatch = []) (hrb : D.rhsBatch = [])
    (l : (⟨3, ![A, B, K]⟩ : Shape).Idx → EReal) (r : (⟨2, ![K, N]⟩ : Shape).Idx → EReal) (p : Fin A) (q : Fin B) (c : Fin N) :
    ∑ s : D.contr.Idx, l (D.lhsIdx (ix3 p q c) s) * r (D.rhsIdx (ix3 p q c) s) = ∑ k : Fin K, l (ix3 p q k) * r (ix2 k c) := by
  have hr : D.contr.rank = 1 := by rw [DotDims.rank_contr, hlc]; rfl
  have hs : D.contr.size ⟨0, by omega⟩ = K := by
    have := D.size_contr 0 (by rw [hlc]; exact Nat.one_pos)
    simpa [hlc] using this
  rw [← Equiv.sum_comp (contrEquiv1 D K hr hs).symm]
  refine Finset.sum_congr rfl fun k _ => ?_
  have hk := contrEquiv1_symm_val D K hr hs k
  have el : D.lhsIdx (ix3 p q c) ((contrEquiv1 D K hr hs).symm k) = ix3 p q k :=
    funext fun a => Fin.ext (by
      match a with
      | ⟨0, _⟩ => exact lhs_ax0 D hlb hln _ _
      | ⟨1, _⟩ => exact lhs_ax1 D hlb hln _ _
      | ⟨2, _⟩ => exact (D.lhsIdx_val_of_single hlc _ _).trans hk)
  have er : D.rhsIdx (ix3 p q c) ((contrEquiv1 D K hr hs).symm k) = ix2 k c :=
    funext fun a => Fin.ext (by
      match a with
      | ⟨0, _⟩ => exact (D.rhsIdx_val_of_single hrc _ _).trans hk
      | ⟨1, _⟩ => exact rhs_col D hlb hln hrb hrn _ _)
  exact congrArg₂ (fun x y => l x * r y) el er

/-- The host's `dot_general` of such a product, at an entry given by its coordinates. -/
theorem hostDot_ix3 {φ₁ φ₂ : FTy} (D : DotDims ⟨3, ![A, B, K]⟩ ⟨2, ![K, N]⟩ ⟨3, ![A, B, N]⟩)
    (hlc : D.lhsContracting = [2]) (hrc : D.rhsContracting = [0]) (hln : D.lhsNonContracting = [0, 1])
    (hrn : D.rhsNonContracting = [1]) (hlb : D.lhsBatch = []) (hrb : D.rhsBatch = [])
    (prec : Option ContractPrecision) (l : FVec Ideal ⟨3, ![A, B, K]⟩ φ₁) (r : FVec Ideal ⟨2, ![K, N]⟩ φ₂)
    (p : Fin A) (q : Fin B) (c : Fin N) :
    Host.dotGeneral D prec l r (ix3 p q c) = ∑ k : Fin K, l (ix3 p q k) * r (ix2 k c) := by
  simp only [Host.dotGeneral]
  rw [Ideal.dotGeneral_apply]
  exact sum_eq D hlc hrc hln hrn hlb hrb l r p q c

/-- An `[N]` vector broadcast to `[1, 1, N]` and then over `A × B` leading positions reads, at `(p, q, c)`, the vector at `c`. -/
theorem bias3_apply (b : (⟨1, ![N]⟩ : Shape).Idx → α)
    (h1 : (⟨1, ![N]⟩ : Shape).BroadcastsInDim ⟨3, ![1, 1, N]⟩ ![2])
    (h2 : (⟨3, ![1, 1, N]⟩ : Shape).BroadcastsInDim ⟨3, ![A, B, N]⟩ ![0, 1, 2]) (p : Fin A) (q : Fin B) (c : Fin N) :
    broadcastInDim ⟨3, ![A, B, N]⟩ ![0, 1, 2] h2 (broadcastInDim ⟨3, ![1, 1, N]⟩ ![2] h1 b) (ix3 p q c) = b (ix1 c) := by
  refine (broadcastInDim_apply _ h2 _ (ix3 p q c) (ix3 (0 : Fin 1) (0 : Fin 1) c) fun a => ?_).trans
    (broadcastInDim_apply _ h1 b (ix3 (0 : Fin 1) (0 : Fin 1) c) (ix1 c) fun a => ?_)
  · match a with
    | ⟨0, _⟩ => show 0 = if (1 : Nat) = 1 then 0 else p.val; rw [if_pos rfl]
    | ⟨1, _⟩ => show 0 = if (1 : Nat) = 1 then 0 else q.val; rw [if_pos rfl]
    | ⟨2, _⟩ =>
      show c.val = if N = 1 then 0 else c.val
      split
      · have := c.isLt; omega
      · rfl
  · match a with
    | ⟨0, _⟩ =>
      show c.val = if N = 1 then 0 else c.val
      split
      · have := c.isLt; omega
      · rfl

/-- An `[A, B]` array broadcast to `[A, B, 1]` and then along `C` trailing positions reads, at `(p, q, c)`, the array at `(p, q)`. -/
theorem col3_apply (v : (⟨2, ![A, B]⟩ : Shape).Idx → α)
    (h1 : (⟨2, ![A, B]⟩ : Shape).BroadcastsInDim ⟨3, ![A, B, 1]⟩ ![0, 1])
    (h2 : (⟨3, ![A, B, 1]⟩ : Shape).BroadcastsInDim ⟨3, ![A, B, C]⟩ ![0, 1, 2]) (p : Fin A) (q : Fin B) (c : Fin C) :
    broadcastInDim ⟨3, ![A, B, C]⟩ ![0, 1, 2] h2 (broadcastInDim ⟨3, ![A, B, 1]⟩ ![0, 1] h1 v) (ix3 p q c) = v (ix2 p q) := by
  refine (broadcastInDim_apply _ h2 _ (ix3 p q c) (ix3 p q (0 : Fin 1)) fun a => ?_).trans
    (broadcastInDim_apply _ h1 v (ix3 p q (0 : Fin 1)) (ix2 p q) fun a => ?_)
  · match a with
    | ⟨0, _⟩ =>
      show p.val = if A = 1 then 0 else p.val
      split
      · have := p.isLt; omega
      · rfl
    | ⟨1, _⟩ =>
      show q.val = if B = 1 then 0 else q.val
      split
      · have := q.isLt; omega
      · rfl
    | ⟨2, _⟩ => show 0 = if (1 : Nat) = 1 then 0 else c.val; rw [if_pos rfl]
  · match a with
    | ⟨0, _⟩ =>
      show p.val = if A = 1 then 0 else p.val
      split
      · have := p.isLt; omega
      · rfl
    | ⟨1, _⟩ =>
      show q.val = if B = 1 then 0 else q.val
      split
      · have := q.isLt; omega
      · rfl

/-- The host's sum over the middle axis of an `[A, B, C]` array: at `(p, c)` the initial value plus the sum over `k` of the
    entries `(p, k, c)`. -/
theorem hostReduceAdd_mid_apply {φ : FTy} (x : FVec Ideal ⟨3, ![A, B, C]⟩ φ) (init : (⟨0, ![]⟩ : Shape).Idx → Ideal φ)
    (h' : (⟨3, ![A, B, C]⟩ : Shape).ReducesTo [1] ⟨2, ![A, C]⟩) (h : (⟨3, ![A, B, C]⟩ : Shape).Reduces [1] ⟨2, ![A, C]⟩)
    (hu : 0 < (⟨0, ![]⟩ : Shape).numel) (p : Fin A) (c : Fin C) :
    Host.reduceAdd x init h' hu (ix2 p c) = init (Shape.Idx.first hu) + ∑ k : Fin B, x (ix3 p k c) := by
  refine (Ideal.hostReduceAdd_single h' h x (init (Shape.Idx.first hu)) (ix2 p c)).trans ?_
  refine congrArg (fun t => init (Shape.Idx.first hu) + t) ?_
  refine Finset.sum_congr rfl fun k _ => congrArg x ?_
  funext d
  match d with
  | ⟨0, _⟩ => exact Fin.ext rfl
  | ⟨1, _⟩ => exact Fin.ext rfl
  | ⟨2, _⟩ => exact Fin.ext rfl

/-- A scalar constant repeated over a shape reads, anywhere, the extended real its word denotes. -/
theorem splat_apply {s : Shape} {φ : FTy} (hb : (⟨0, ![]⟩ : Shape).BroadcastsInDim s (![] : Fin 0 → Fin s.rank)) (w : BitVec φ.bits) (i : s.Idx) :
    broadcastInDim s ![] hb (constant (F := Ideal) ⟨0, ![]⟩ φ w) i = Ideal.ofBits φ w :=
  (broadcastInDim_apply _ hb _ i ix0 fun a => a.elim0).trans rfl

end Idealize.ShloMosaic.Rank3Host

end
-- ==== Proof.RefValue.lean ====
/-
  The reference's term read one entry at a time: it is the specification's `out` at the row lookup `take`.

  Each stage of the term is read at an index given by its coordinates. A `dot_general` is the sum over the contracted
  coordinate of the products; a broadcast reads the operand at the coordinates it keeps; the softplus's select takes
  its last operand, because no extended real differs from itself; the sum over the neighbour slots starts from the
  zero word, which is the number zero; and the reference's product (fetched row × (filter × cutoff)) × mask is
  re-associated into the specification's order.
-/
import proofs.«173641_j13245679141058_2_alg».proof.Proof.RefDefs
import proofs.«173641_j13245679141058_2_alg».proof.Proof.Spec
import proofs.«173641_j13245679141058_2_alg».proof.Proof.LibPlainDot
import proofs.«173641_j13245679141058_2_alg».proof.Proof.LibDense
import proofs.«173641_j13245679141058_2_alg».proof.Proof.LibRank3Host
import Idealize.ShloMosaic.PureOps.Ideal.Laws
import Idealize.ShloMosaic.Lib.ValueIdx

noncomputable section

open scoped BigOperators

namespace Cert.ReferenceIdeal.RefValue

open Cert.ReferenceIdeal Cert.ReferenceIdeal.Facts₀ Idealize.ShloMosaic Idealize.ShloMosaic.ValueIdx Cert.FilterConv

/-- On the extended reals nothing differs from itself. -/
theorem une_self (d : EReal) : FloatOps.cmpf (F := Ideal) (φ := .f32) .une d d = 0#1 := by
  show Ideal.cmp .une d d = 0#1
  simp [Ideal.cmp]

/-- The softplus as the program spells it, at one entry: the branch the select takes. -/
theorem spV_apply {s : Shape} (hb : S_.BroadcastsInDim s (![] : Fin 0 → Fin s.rank)) (v : FVec Ideal s .f32) (i : s.Idx) :
    spV hb v i = max (v i : EReal) Z + FloatOps.log1p (F := Ideal) (φ := .f32) (FloatOps.exp (F := Ideal) (φ := .f32) (-(FloatOps.absf (F := Ideal) (φ := .f32) ((v i : EReal) - Z)))) := by
  have hsel : spV hb v i = Scalar.select (FloatOps.cmpf (F := Ideal) (φ := .f32) .une ((v i : EReal) - Z) ((v i : EReal) - Z)) ((v i : EReal) + Z)
      (max (v i : EReal) Z + FloatOps.log1p (F := Ideal) (φ := .f32) (FloatOps.exp (F := Ideal) (φ := .f32) (-(FloatOps.absf (F := Ideal) (φ := .f32) ((v i : EReal) - Z))))) := rfl
  rw [hsel, une_self, select_zero]

/-- The softplus minus the word of log 2, at one entry: the specification's shifted softplus. -/
theorem ssp_apply {s : Shape} (hb : S_.BroadcastsInDim s (![] : Fin 0 → Fin s.rank)) (v : FVec Ideal s .f32) (i : s.Idx) :
    subf (spV hb v) (broadcastInDim s ![] hb (constant (F := Ideal) S_ .f32 0x3F317218#32)) i = ssp (v i) := by
  rw [subf_apply, spV_apply, Rank3Host.splat_apply]
  rfl

/-- The hidden layer at (n, k, i). -/
theorem hidV_apply (dRe : FVec Ideal S10000x48x25 .f32) (W1 : FVec Ideal S25x128 .f32) (b1 : FVec Ideal S128 .f32)
    (n : Fin 10000) (k : Fin 48) (i : Fin 128) : hidV dRe W1 b1 (ix3 n k i) = hid dRe W1 b1 n k i := by
  refine (ssp_apply bcast_S_S10000x48x128 _ (ix3 n k i)).trans (congrArg ssp ?_)
  rw [addf_apply, Rank3Host.hostDot_ix3 _ rfl rfl rfl rfl rfl rfl none dRe W1 n k i,
    Rank3Host.bias3_apply b1 bcast_S128_S1x1x128_2 bcast_S1x1x128_S10000x48x128_0_1_2 n k i]

/-- The filter value at (n, k, j). -/
theorem filtV_apply (dRe : FVec Ideal S10000x48x25 .f32) (W1 : FVec Ideal S25x128 .f32) (b1 : FVec Ideal S128 .f32)
    (W2 : FVec Ideal S128x128 .f32) (b2 : FVec Ideal S128 .f32) (n : Fin 10000) (k : Fin 48) (j : Fin 128) :
    filtV (hidV dRe W1 b1) W2 b2 (ix3 n k j) = filt dRe W1 b1 W2 b2 n k j := by
  unfold filtV filt
  rw [addf_apply, Rank3Host.hostDot_ix3 _ rfl rfl rfl rfl rfl rfl none (hidV dRe W1 b1) W2 n k j,
    Rank3Host.bias3_apply b2 bcast_S128_S1x1x128_2 bcast_S1x1x128_S10000x48x128_0_1_2 n k j]
  refine congrArg (fun t => t + b2 (ix1 j)) (Finset.sum_congr rfl fun i _ => ?_)
  rw [hidV_apply]

/-- The cutoff factor spread over the channels, at (n, k, j). -/
theorem cutV_apply (dR : FVec Ideal S10000x48 .f32) (n : Fin 10000) (k : Fin 48) (j : Fin 128) :
    colV (cutV dR) (ix3 n k j) = cut (dR (ix2 n k)) := by
  unfold colV
  rw [Rank3Host.col3_apply (cutV dR) bcast_S10000x48_S10000x48x1_0_1 bcast_S10000x48x1_S10000x48x128_0_1_2 n k j]
  rfl

/-- The pair mask spread over the channels, at (n, k, j). -/
theorem colV_apply (pm : FVec Ideal S10000x48 .f32) (n : Fin 10000) (k : Fin 48) (j : Fin 128) :
    colV pm (ix3 n k j) = pm (ix2 n k) :=
  Rank3Host.col3_apply pm bcast_S10000x48_S10000x48x1_0_1 bcast_S10000x48x1_S10000x48x128_0_1_2 n k j

/-- The projected features are the specification's. -/
theorem projV_eq (x : FVec Ideal S10000x128 .f32) (Win : FVec Ideal S128x128 .f32) : projV x Win = proj x Win := by
  funext j
  exact PlainDot.hostDot_apply dot_S10000x128_S128x128_S10000x128_1_0_0_1_n_n rfl none x Win j

/-- The sum over the neighbour slots at (n, j). -/
theorem aggV_apply (T : FVec Ideal S10000x48x128 .f32) (dR : FVec Ideal S10000x48 .f32) (dRe : FVec Ideal S10000x48x25 .f32)
    (pm : FVec Ideal S10000x48 .f32) (W1 : FVec Ideal S25x128 .f32) (b1 : FVec Ideal S128 .f32)
    (W2 : FVec Ideal S128x128 .f32) (b2 : FVec Ideal S128 .f32) (n : Fin 10000) (j : Fin 128) :
    aggV T (mulf (filtV (hidV dRe W1 b1) W2 b2) (colV (cutV dR))) pm (ix2 n j)
      = ∑ k : Fin 48, T (ix3 n k j) * (filt dRe W1 b1 W2 b2 n k j * (cut (dR (ix2 n k)) * pm (ix2 n k))) := by
  unfold aggV
  rw [Rank3Host.hostReduceAdd_mid_apply _ _ reducesTo_S10000x48x128_S10000x128_d1 (by decide) h_S_ n j]
  refine (congrArg (fun z : EReal => z + _) Ideal.ofBits_zero_f32).trans ((zero_add _).trans ?_)
  refine Finset.sum_congr rfl fun k _ => ?_
  rw [mulf_apply, mulf_apply, mulf_apply, filtV_apply, cutV_apply, colV_apply, mul_assoc, mul_assoc]

/-- The whole term is the specification's `out` at the row lookup `take`. -/
theorem term_eq (x : FVec Ideal S10000x128 .f32) (dR : FVec Ideal S10000x48 .f32) (dRe : FVec Ideal S10000x48x25 .f32)
    (pm : FVec Ideal S10000x48 .f32) (nbr : IVec S10000x48 32) (W1 : FVec Ideal S25x128 .f32) (b1 : FVec Ideal S128 .f32)
    (W2 : FVec Ideal S128x128 .f32) (b2 : FVec Ideal S128 .f32) (Win Wout : FVec Ideal S128x128 .f32) (bout : FVec Ideal S128 .f32) :
    term x dR dRe pm nbr W1 b1 W2 b2 Win Wout bout = out take x dR dRe pm nbr W1 b1 W2 b2 Win Wout bout := by
  funext q
  obtain ⟨n, f, rfl⟩ : ∃ (n : Fin 10000) (f : Fin 128), q = ix2 n f := ⟨q 0, q 1, eq_ix2 q⟩
  show outV _ Wout bout (ix2 n f)
    = ssp ((∑ j : Fin 128, agg take x dR dRe pm nbr W1 b1 W2 b2 Win n j * Wout (ix2 j f)) + bout (ix1 f))
  refine (ssp_apply bcast_S_S10000x128 _ (ix2 n f)).trans (congrArg ssp ?_)
  rw [addf_apply, PlainDot.hostDot_apply dot_S10000x128_S128x128_S10000x128_1_0_0_1_n_n rfl none _ Wout (ix2 n f),
    Dense.rowBias_apply bout bcast_S128_S1x128_1 bcast_S1x128_S10000x128_0_1 n f]
  refine congrArg (fun t => t + bout (ix1 f)) (Finset.sum_congr rfl fun j _ => ?_)
  refine congrArg (fun t => t * Wout (ix2 j f)) ?_
  show aggV (take (projV x Win) nbr) _ pm (ix2 n j) = agg take x dR dRe pm nbr W1 b1 W2 b2 Win n j
  rw [aggV_apply, projV_eq]
  rfl

end Cert.ReferenceIdeal.RefValue

end
-- ==== Proof.RefRun.lean ====
/-
  The reference's run: from any memory with zero counters every weakly fair execution of the entry function
  terminates with the result buffer at the specification's `out` (at the row lookup `take`) of the argument buffers'
  launch contents, and every argument buffer unchanged.
-/
import proofs.«173641_j13245679141058_2_alg».proof.Proof.RefOps
import proofs.«173641_j13245679141058_2_alg».proof.Proof.RefTerm
import proofs.«173641_j13245679141058_2_alg».proof.Proof.RefArgs
import proofs.«173641_j13245679141058_2_alg».proof.Proof.RefValue

noncomputable section

namespace Cert.ReferenceIdeal.RefValue

open Cert.ReferenceIdeal Cert.ReferenceIdeal.Facts₀ Idealize.ShloMosaic Idealize.ShloMosaic.TcCoe Idealize.SL.Sem Idealize.ShloMosaic.StableHlo

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v30) = Cert.FilterConv.out take (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (defs (F := Ideal)) _ _).mono (fun _ h c => ⟨(h c main_v30).trans ((out_eq (launchContents m c)).trans (term_eq _ _ _ _ _ _ _ _ _ _ _ _)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _)⟩)
    (run_after m ρ)

end Cert.ReferenceIdeal.RefValue

end
-- ==== Proof.lean ====
/-
  The continuous-filter convolution of a SchNet-style interaction block: the tiled program against its plain
  reference, on the extended reals.

  Both programs compute, for each of 10000 atoms and 128 output channels, the shifted softplus of an affine layer
  applied to the sum, over the atom's 48 neighbour slots, of (the neighbour's projected feature row) × (a filter value
  produced by a two-layer network from the pair's 25 radial features) × (the cutoff indicator of the pair's distance)
  × (the pair mask). The tiled program projects the features in a first region of five row blocks, fetches the
  neighbour rows and multiplies indicator and mask on the host, and does everything else in a second region of fifty
  atom blocks; the reference does the same steps on whole arrays. The two differ only in how the four factors of a
  slot's contribution are grouped — fetched · (filter · (indicator · mask)) against ((fetched · (filter · indicator)) ·
  mask) — and multiplication of extended reals is associative, so no finiteness is used. Matrix products into a zero
  accumulator and host contractions are the same finite sums, changes of float format are the identity, the two
  spellings of the shifted softplus are one function, and the row lookup is the same composition of operations in
  both programs, carried unopened.

  The statement's first three parts say each program runs to completion leaving its arguments unchanged: for the two
  tiled programs that is the generated frame; for the reference it is its run with the result dropped.
-/
import proofs.«173641_j13245679141058_2_alg».proof.Defs
import proofs.«173641_j13245679141058_2_alg».proof.Proof.Gen.Kernel.Frame
import proofs.«173641_j13245679141058_2_alg».proof.Proof.Gen.KernelIdeal.Frame
import proofs.«173641_j13245679141058_2_alg».proof.Proof.Gen.ReferenceIdeal
import proofs.«173641_j13245679141058_2_alg».proof.Proof.Gen.Pre_finite_inputs
import proofs.«173641_j13245679141058_2_alg».proof.Proof.KValue
import proofs.«173641_j13245679141058_2_alg».proof.Proof.RefRun

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

/-- The row lookup is one composition of operations in both programs. -/
theorem take_eq : Cert.KernelIdeal.KRun.take = Cert.ReferenceIdeal.RefValue.take := rfl

/-- From memories agreeing on the arguments both programs end with the specification's array. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5, a6, a7, a8, a9, a10, a11⟩ := hagree c
  rw [a0, a1, a2, a3, a4, a5, a6, a7, a8, a9, a10, a11, ← take_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
